-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x64x4096 : Shape := ⟨3, ![4, 64, 4096]⟩
abbrev S_ : Shape := ⟨0, ![]⟩
abbrev S1x1x1 : Shape := ⟨3, ![1, 1, 1]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x64x4096 : S_.BroadcastsInDim S4x64x4096 (![] : Fin 0 → Fin S4x64x4096.rank)
  reducesTo_S4x64x4096_S_d0_1_2 : S4x64x4096.ReducesTo [0, 1, 2] S_
  bcast_S_S1x1x1 : S_.BroadcastsInDim S1x1x1 (![] : Fin 0 → Fin S1x1x1.rank)
  bcast_S1x1x1_S4x64x4096_0_1_2 : S1x1x1.BroadcastsInDim S4x64x4096 (![0, 1, 2] : Fin 3 → Fin S4x64x4096.rank)

variable [Facts]

def fn_part1 {F : FTy → Type} [FloatOps F] (main_v8 : IVec S_ 1) (main_v16 : FVec F S_ .f32) : IVec S_ 1 :=
  let main_cst_5 : FVec F S_ .f32 := constant S_ .f32 0x00000000#32
  let main_v17 : IVec S_ 1 := cmpf .ogt main_v16 main_cst_5
  let main_v18 : IVec S_ 1 := andi main_v8 main_v17
  main_v18

def fn {F : FTy → Type} [FloatOps F] (main_arg0 : FVec F S4x4096x4096 .f32) (main_arg1 : FVec F S4x64x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x64x4096 .f32 := Host.absf main_arg1
  let main_cst_0 : FVec F S_ .f32 := constant S_ .f32 0x7F800000#32
  let main_v5 : FVec F S4x64x4096 .f32 := broadcastInDim S4x64x4096 ![] bcast_S_S4x64x4096 main_cst_0
  let main_v6 : IVec S4x64x4096 1 := cmpf .olt main_v4 main_v5
  let main_c_1 : IVec S_ 1 := constantI S_ 1 1#1
  let main_v7 : IVec S_ 1 := (fun x v => Host.reduce IntOp.andi x v reducesTo_S4x64x4096_S_d0_1_2 h_S_) main_v6 main_c_1
  let main_v8 : IVec S_ 1 := andi main_v3 main_v7
  let main_cst_2 : FVec F S_ .f32 := constant S_ .f32 0x00000000#32
  let main_v9 : FVec F S_ .f32 := (fun x v => Host.reduceAdd x v reducesTo_S4x64x4096_S_d0_1_2 h_S_) main_arg1 main_cst_2
  let main_v10 : FVec F S1x1x1 .f32 := broadcastInDim S1x1x1 ![] bcast_S_S1x1x1 main_v9
  let main_cst_3 : FVec F S_ .f32 := constant S_ .f32 0x49800000#32
  let main_v11 : FVec F S1x1x1 .f32 := broadcastInDim S1x1x1 ![] bcast_S_S1x1x1 main_cst_3
  let main_v12 : FVec F S1x1x1 .f32 := Host.divf main_v10 main_v11
  let main_v13 : FVec F S4x64x4096 .f32 := broadcastInDim S4x64x4096 ![0, 1, 2] bcast_S1x1x1_S4x64x4096_0_1_2 main_v12
  let main_v14 : FVec F S4x64x4096 .f32 := subf main_arg1 main_v13
  let main_v15 : FVec F S4x64x4096 .f32 := mulf main_v14 main_v14
  let main_cst_4 : FVec F S_ .f32 := constant S_ .f32 0x00000000#32
  let main_v16 : FVec F S_ .f32 := (fun x v => Host.reduceAdd x v reducesTo_S4x64x4096_S_d0_1_2 h_S_) main_v15 main_cst_4
  fn_part1 (F := F) main_v8 main_v16
-- ==== Kernel.lean ====
abbrev S4x4096x4096 : Shape := ⟨3, ![4, 4096, 4096]⟩
abbrev S4x64x4096 : Shape := ⟨3, ![4, 64, 4096]⟩
abbrev S_ : Shape := ⟨0, ![]⟩
abbrev S1x1x1 : Shape := ⟨3, ![1, 1, 1]⟩
abbrev S4x4096 : Shape := ⟨2, ![4, 4096]⟩
abbrev S4x4096x1 : Shape := ⟨3, ![4, 4096, 1]⟩
abbrev S4x1x4096 : Shape := ⟨3, ![4, 1, 4096]⟩
abbrev S1x64x1024 : Shape := ⟨3, ![1, 64, 1024]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S64x1024 : Shape := ⟨2, ![64, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 40
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S4x64x4096, .f32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S1x1x1, .f32⟩
  | .hbm, ⟨9, _⟩ => ⟨S4x64x4096, .f32⟩
  | .hbm, ⟨10, _⟩ => ⟨S4x64x4096, .f32⟩
  | .hbm, ⟨11, _⟩ => ⟨S4x64x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x64x4096, .f32⟩
  | .hbm, ⟨25, _⟩ => ⟨S4x64x4096, .f32⟩
  | .hbm, ⟨26, _⟩ => ⟨S_, .f32⟩
  | .hbm, ⟨27, _⟩ => ⟨S4x64x4096, .f32⟩
  | .hbm, ⟨28, _⟩ => ⟨S4x64x4096, .f32⟩
  | .hbm, ⟨29, _⟩ => ⟨S4x64x4096, .bf16⟩
  | .hbm, ⟨30, _⟩ => ⟨S4x64x4096, .f32⟩
  | .hbm, ⟨31, _⟩ => ⟨S4x64x4096, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S4x4096x1, .f32⟩
  | .hbm, ⟨38, _⟩ => ⟨S4x1x4096, .f32⟩
  | .hbm, ⟨39, _⟩ => ⟨S4x4096x4096, .f32⟩
  | .local _ .vmem, ⟨0, _⟩ => ⟨S1x64x1024, .bf16⟩
  | .local _ .vmem, ⟨1, _⟩ => ⟨S1x64x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x1024x1, .f32⟩
  | .local _ .vmem, ⟨5, _⟩ => ⟨S1x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_cst_0 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_cst_1 : Ref sig .tc := ⟨.hbm, 13, rfl⟩
abbrev main_call0_call0_v8 : Ref sig .tc := ⟨.hbm, 14, rfl⟩
abbrev main_call0_call0_cst_2 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_cst_3 : Ref sig .tc := ⟨.hbm, 18, rfl⟩
abbrev main_call0_call0_v11 : Ref sig .tc := ⟨.hbm, 19, rfl⟩
abbrev main_call0_call0_cst_4 : Ref sig .tc := ⟨.hbm, 20, rfl⟩
abbrev main_call0_call0_call0_v0 : Ref sig .tc := ⟨.hbm, 21, rfl⟩
abbrev main_call0_v0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  reducesTo_S4x64x4096_S_d0_1_2 : S4x64x4096.ReducesTo [0, 1, 2] S_
  h_S_ : 0 < S_.numel
  bcast_S_S1x1x1 : S_.BroadcastsInDim S1x1x1 (![] : Fin 0 → Fin S1x1x1.rank)
  bcast_S1x1x1_S4x64x4096_0_1_2 : S1x1x1.BroadcastsInDim S4x64x4096 (![0, 1, 2] : Fin 3 → Fin S4x64x4096.rank)
  bcast_S_S4x64x4096 : S_.BroadcastsInDim S4x64x4096 (![] : Fin 0 → Fin S4x64x4096.rank)
  bitsLt_bf16_f32 : FTy.bits .bf16 < FTy.bits .f32
  reducesTo_S4x64x4096_S4x4096_d1 : S4x64x4096.ReducesTo [1] S4x4096
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S64x1024_S64x1024_S1024x1024_0_0_1_1_n_n_wf : DotDims.WF S64x1024 S64x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S4x64x4096.size a
  hwx0_0 : ∀ i : grid0.Coords, EltTy.bits .bf16 = 32 ∨ (Rect.block (s := S4x64x4096) S1x64x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S4x64x4096.size a
  hwx0_1 : ∀ i : grid0.Coords, EltTy.bits .bf16 = 32 ∨ (Rect.block (s := S4x64x4096) S1x64x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x4096x1.size a
  hwx0_2 : ∀ i : grid0.Coords, EltTy.bits .f32 = 32 ∨ (Rect.block (s := S4x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x4096.size a
  hwx0_3 : ∀ i : grid0.Coords, EltTy.bits .f32 = 32 ∨ (Rect.block (s := S4x1x4096) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x4096x4096.size a
  hwx0_4 : ∀ i : grid0.Coords, EltTy.bits .f32 = 32 ∨ (Rect.block (s := S4x4096x4096) S1x1024x1024.size (cc0_transform_4 i) (hinb0_4 i)).WholeWords (EltTy.packing .f32)

variable [Facts₀]

def dot_S64x1024_S64x1024_S1024x1024_0_0_1_1_n_n : DotDims S64x1024 S64x1024 S1024x1024 where
  lhsContracting := [0]
  rhsContracting := [0]
  lhsNonContracting := [1]
  rhsNonContracting := [1]
  lhsBatch := []
  rhsBatch := []
  wf := dot_S64x1024_S64x1024_S1024x1024_0_0_1_1_n_n_wf

abbrev win0_0 : Pipeline.Window sig grid0 :=
  Pipeline.Window.ofSpec (Memref.whole main_v5) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4x64x4096 : Shape := ⟨3, ![4, 64, 4096]⟩
abbrev S_ : Shape := ⟨0, ![]⟩
abbrev S1x1x1 : Shape := ⟨3, ![1, 1, 1]⟩
abbrev S4x4096 : Shape := ⟨2, ![4, 4096]⟩
abbrev S4x4096x1 : Shape := ⟨3, ![4, 4096, 1]⟩
abbrev S4x1x4096 : Shape := ⟨3, ![4, 1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x64x4096, .f32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S1x1x1, .f32⟩
  | .hbm, ⟨9, _⟩ => ⟨S4x64x4096, .f32⟩
  | .hbm, ⟨10, _⟩ => ⟨S4x64x4096, .f32⟩
  | .hbm, ⟨11, _⟩ => ⟨S4x64x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x64x4096, .f32⟩
  | .hbm, ⟨25, _⟩ => ⟨S4x64x4096, .f32⟩
  | .hbm, ⟨26, _⟩ => ⟨S4x64x4096, .f32⟩
  | .hbm, ⟨27, _⟩ => ⟨S_, .f32⟩
  | .hbm, ⟨28, _⟩ => ⟨S4x4096, .f32⟩
  | .hbm, ⟨29, _⟩ => ⟨S4x4096x4096, .f32⟩
  | .hbm, ⟨30, _⟩ => ⟨S4x4096x1, .f32⟩
  | .hbm, ⟨31, _⟩ => ⟨S4x1x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_cst_0 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_cst_1 : Ref sig .tc := ⟨.hbm, 13, rfl⟩
abbrev main_call0_call0_v8 : Ref sig .tc := ⟨.hbm, 14, rfl⟩
abbrev main_call0_call0_cst_2 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_cst_3 : Ref sig .tc := ⟨.hbm, 18, rfl⟩
abbrev main_call0_call0_v11 : Ref sig .tc := ⟨.hbm, 19, rfl⟩
abbrev main_call0_call0_cst_4 : Ref sig .tc := ⟨.hbm, 20, rfl⟩
abbrev main_call0_call0_call0_v0 : Ref sig .tc := ⟨.hbm, 21, rfl⟩
abbrev main_call0_v0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩

abbrev nD : Nat := 1
abbrev τ : Topo := Topo.v7x

variable {F : FTy → Type} [FloatOps F]

class Facts₀ : Prop where
  reducesTo_S4x64x4096_S_d0_1_2 : S4x64x4096.ReducesTo [0, 1, 2] S_
  h_S_ : 0 < S_.numel
  bcast_S_S1x1x1 : S_.BroadcastsInDim S1x1x1 (![] : Fin 0 → Fin S1x1x1.rank)
  bcast_S1x1x1_S4x64x4096_0_1_2 : S1x1x1.BroadcastsInDim S4x64x4096 (![0, 1, 2] : Fin 3 → Fin S4x64x4096.rank)
  bcast_S_S4x64x4096 : S_.BroadcastsInDim S4x64x4096 (![] : Fin 0 → Fin S4x64x4096.rank)
  reducesTo_S4x64x4096_S4x4096_d1 : S4x64x4096.ReducesTo [1] S4x4096
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x64x4096_S4x64x4096_S4x4096x4096_1_1_2_2_0_0_wf : DotDims.WF S4x64x4096 S4x64x4096 S4x4096x4096 [1] [1] [2] [2] [0] [0]

variable [Facts₀]

def dot_S4x64x4096_S4x64x4096_S4x4096x4096_1_1_2_2_0_0 : DotDims S4x64x4096 S4x64x4096 S4x4096x4096 where
  lhsContracting := [1]
  rhsContracting := [1]
  lhsNonContracting := [2]
  rhsNonContracting := [2]
  lhsBatch := [0]
  rhsBatch := [0]
  wf := dot_S4x64x4096_S4x64x4096_S4x4096x4096_1_1_2_2_0_0_wf

class Facts : Prop extends Facts₀ where

variable [Facts]
-- ==== Proof.WData.lean ====
/-
  What the pipelined kernel's frame run and its value are both stated about.

  The kernel is handed four operands through windows: the scaled embedding (bf16) TWICE — window 0 takes, for grid
  point (b, i, j), the 64 × 1024 block of columns of point block `i`, window 1 the block of point block `j` —, the
  column of half-norms (window 2, block `i`) and the row of half-norms (window 3, block `j`); window 4 is the
  1024 × 1024 tile (i, j) of the result for batch `b`.

  `V` is what the core's buffers hold when the kernel is entered (the host operations before it, folded over the
  launch memory); `iblk w t` is window `w`'s block of its array at grid point `t`; `tile` is what the body leaves in the
  output window's buffer, as a function of the four input blocks (its one store, of the body's arithmetic `k0_pay1`);
  `dats` is the pipeline's proof data: every input buffer ends a point holding its block, the output buffer holding the
  tile, nothing is carried from point to point, and the array both windows 0 and 1 read is held in two halves.
-/
import proofs.«152303_j32890859553362_2_alg».proof.Proof.Gen.Kernel.Launch
import proofs.«152303_j32890859553362_2_alg».proof.Proof.Gen.Kernel.Skeleton
import proofs.«152303_j32890859553362_2_alg».proof.Proof.Gen.Kernel.Points
import Idealize.ShloMosaic.Lib.Pipeline.FrameBody

noncomputable section

namespace Cert.Kernel.WFrame

open Idealize.ShloMosaic Idealize.ShloMosaic.TcCoe
open Idealize.SL Idealize.SL.RA Idealize.SL.BI
open scoped Idealize.SL.BI
open Idealize.SL.Sem
open Idealize.ShloMosaic.Rounds
open Idealize.ShloMosaic.Pipeline (Dat Cfg Window)
open Cert.Kernel Cert.Kernel.Gen

variable {F : FTy → Type} [FloatOps F]

variable (m : (ℓ : Loc nD τ sig) → Buf (Elt F) ℓ)

/-- Core `c`'s TensorCore buffers when the kernel is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of each staging buffer, as the body's loads and its store address it. -/
abbrev rEmb : Rect S1x64x1024 := Rect.unit (s := S1x64x1024) ![0, 0, 0] S1x64x1024.size inb_S1x64x1024_S1x64x1024_0_0_0
abbrev rCol : Rect S1x1024x1 := Rect.unit (s := S1x1024x1) ![0, 0, 0] S1x1024x1.size inb_S1x1024x1_S1x1024x1_0_0_0
abbrev rRow : Rect S1x1x1024 := Rect.unit (s := S1x1x1024) ![0, 0, 0] S1x1x1024.size inb_S1x1x1024_S1x1x1024_0_0_0
abbrev rTile : Rect S1x1024x1024 := Rect.unit (s := S1x1024x1024) ![0, 0, 0] S1x1024x1024.size inb_S1x1024x1024_S1x1024x1024_0_0_0

/-- The output window's buffer after the body, from the four input blocks: its one store. -/
def tile (x0 x1 : Vec F S1x64x1024 .bf16) (x2 : Vec F S1x1024x1 .f32) (x3 : Vec F S1x1x1024 .f32) : Vec F S1x1024x1024 .f32 :=
  View.canon [⟨rTile, k0_pay1 (View.ld x0 rEmb) (View.ld x1 rEmb) (View.ld x2 rCol) (View.ld x3 rRow)⟩]

/-- The share each window holds of its array: the array windows 0 and 1 both read is held in two halves. -/
def shareOf : Fin 5 → PosShare TreeShare
  | ⟨0, _⟩ => fullShare.left
  | ⟨1, _⟩ => fullShare.right
  | ⟨2, _⟩ => fullShare
  | ⟨3, _⟩ => fullShare
  | ⟨4, _⟩ => fullShare

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile (iblk m c 0 t) (iblk m c 1 t) (iblk m c 2 t) (iblk m c 3 t)
  Φ _ := Pipeline.scopedRest spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = tile (iblk m c 0 t) (iblk m c 1 t) (iblk m c 2 t) (iblk m c 3 t) := by dsimp only [dats]

end Cert.Kernel.WFrame

end
-- ==== Proof.WSplit.lean ====
/-
  The shares of the windows' arrays.

  The pipelined region has five windows but only four distinct buffers behind their arrays: windows 0 and 1 read one
  array at two different blocks.  At the region's entry each of the four buffers is held whole; the pipeline wants
  each WINDOW's array at that window's share.  The array read twice is cut into its left and right halves, each half
  enough to read it, one half per window; the other three arrays pass whole.
-/
import proofs.«152303_j32890859553362_2_alg».proof.Proof.WData

noncomputable section

namespace Cert.Kernel.WFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Four distinct buffers stand behind the five windows' arrays. -/
theorem arrImage : Finset.univ.image (Pipeline.arrRef spec0) = [main_v5, main_v11, main_v12, main_v13].toFinset := by decide

/-- A conjunction over the buffers behind the windows' arrays, buffer by buffer. -/
theorem bigSep_arrImage {M : Type} [URA M] (Φ : Ref sig .tc → sProp M) :
    bigSep (Finset.univ.image (Pipeline.arrRef spec0)) Φ = iprop(Φ main_v5 ∗ Φ main_v11 ∗ Φ main_v12 ∗ Φ main_v13) :=
  bigSep_eq_bigSepL_of_eq [main_v5, main_v11, main_v12, main_v13] arrImage (by decide) Φ

/-- The four buffers behind the windows' arrays, each held whole, yield every window's array at its share: the array the
    first two windows both read is cut into its left and right halves, one per window; the others pass whole. -/
theorem hsplit (c : Dev nD) : (Pipeline.arrBufs spec0 c (V m c) : sProp 𝕄) ⊢ (dats m 0 c).arrays ((dats m 0 c).arrAt · 0) := by
  unfold Pipeline.arrBufs Dat.arrays
  rw [bigSep_W0, bigSep_arrImage]
  beta_reduce
  rw [show (dats m 0 c).arrAt 0 0 = V m c main_v5 from A_eq m c 0,
    show (dats m 0 c).arrAt 1 0 = V m c main_v5 from A_eq m c 1,
    show (dats m 0 c).arrAt 2 0 = V m c main_v11 from A_eq m c 2,
    show (dats m 0 c).arrAt 3 0 = V m c main_v12 from A_eq m c 3,
    show (dats m 0 c).arrAt 4 0 = V m c main_v13 from A_eq m c 4,
    show (dats m 0 c).share 0 = fullShare.left from rfl,
    show (dats m 0 c).share 1 = fullShare.right from rfl,
    show (dats m 0 c).share 2 = fullShare from rfl,
    show (dats m 0 c).share 3 = fullShare from rfl,
    show (dats m 0 c).share 4 = fullShare from rfl]
  simp only [View.set_whole]
  iintro ⟨H5, H11, H12, H13⟩
  ihave H5' := (pointsTo_share (PosShare.mem_left_op_right fullShare)).1 $$ H5
  icases H5' with ⟨H5l, H5r⟩
  isplitl [H5l]; · iexact H5l
  isplitl [H5r]; · iexact H5r
  isplitl [H11]; · iexact H11
  isplitl [H12]; · iexact H12
  iexact H13

end Cert.Kernel.WFrame

end
-- ==== Proof.LibSharedFrame.lean ====
/-
  The frame run of a one-region pipeline kernel whose windows may SHARE arrays.

  A pipelined kernel is handed each operand through a window: at every grid point the window's block of the
  operand's array is copied into a staging buffer, the body runs on the staging buffers, and each output
  window's block is copied back.  When every window has an array of its own, the arrays are held whole, one per
  window.  When one array is handed to the kernel through SEVERAL input windows (one array read at two block
  shapes, say), no single window can hold the array whole: its ownership is dealt among the windows on it as
  fractional shares, each share enough to read the array, none enough to write it.

  The statement below is the run of such a program from launch to its end: for proof data whose per-window
  shares are justified by `hsplit` (the distinct buffers behind the arrays, each held whole, yield every window's
  array at that window's share), whose body obligation holds at every grid point, whose body keeps no state
  from point to point beyond the scoped buffers the pipeline does not stage (`hΦ`), and which owes no
  signal, every weakly fair execution terminates without a fault, every window's array ends at the contents
  the write-backs leave (`arrAt` at the last point: an input's entry contents, an output's blocks overwritten
  in point order), and every unscoped buffer that is no window's array ends as the region found it.  Windows
  on one array end holding the same contents, each its own `arrAt`.
-/
import Idealize.ShloMosaic.Lib.Pipeline.Frame

noncomputable section

namespace Cert.Lib.SharedFrame

open Idealize.ShloMosaic Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : Labels} {P : Type} [Fintype P] [DecidableEq P] [∀ e, Nonempty (Val e)]

local notation "𝕄" => MT nD τ sig Unit Val ℕ (UR sig nD τ) ℕ

/-- The frame run of pipeline `p` when its windows may share arrays: the layout facts but for the arrays'
    distinctness (`hw`), the staging cells distinct (`hinj`), the body obligation, the shares' dealing (`hsplit`), and
    an invariant that is the scoped rest at every point (`hΦ`: the body carries nothing the proof names). The
    generator register, which such a body does not use, is let go at the region's entry. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp)) (fun c => unscopedRest (cfgs p).spec c (V c))
    (fun c => by
      iintro H
      isplitr
      · iempintro
      · iexact H)
    (fun c => by
      rw [hΦ]
      iintro ⟨-, H⟩
      iexact H)
    (fun c => by
      rw [hΦ]
      iintro H
      isplitr
      · iempintro
      · iexact H)
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Cert.Lib.SharedFrame

end
-- ==== Proof.WFrame.lean ====
/-
  The frame run of the pipelined kernel program.

  The program is three stretches of host operations followed by one pipelined region on a 4 × 4 × 4 grid with five
  windows.  Windows 0 and 1 read ONE array (the scaled embedding) at two different blocks, so that array cannot be
  held whole by either window: it is held in two halves, one per window, each half enough to read it.

  The proof has four parts.
  * The host prefix: the program up to the region is its three stretches, none of which writes either argument
    array, so the region finds both as launched.
  * The body: at every grid point each input's staging buffer holds the window's block of its array, and the body —
    four whole-buffer loads, one more load of the output buffer whose value is unused, one whole-buffer store —
    leaves the inputs as they were and the output buffer at `tile` of the four blocks.  Because the output buffer
    is loaded before it is stored, it must be held (at anything) on entry.
  * The shares (proved in the module on the arrays' shares, imported here): the four distinct buffers behind the five
    windows' arrays, each held whole, yield each window's array at that window's share — the shared array is cut into
    its left and right halves.
  * The run: the shared-array launch theorem from these, and from its post the two argument arrays — which are no
    window's array — end as the region found them, that is as launched.
-/
import proofs.«152303_j32890859553362_2_alg».proof.Proof.WData
import proofs.«152303_j32890859553362_2_alg».proof.Proof.WSplit
import proofs.«152303_j32890859553362_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.WFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- No host operation allocates a buffer of its own. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the region is its three stretches of host operations; the region is entered with every buffer at
    what they leave (`V`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the first argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
/-- No host operation writes the second argument array either. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-! ## What the inputs' staging buffers hold -/

/-- Each input window's current staging buffer holds the window's block of its array at every grid point, whether the
    block was copied in at that point or at an earlier one (the block index has not moved since). -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-! ## The body -/

/-- The body's one store is of the whole output buffer, so it covers it. -/
theorem cover (p0 : Vec F S1x1024x1024 .f32) (y : S1x1024x1024.Idx) :
    ∃ pc ∈ ([⟨rTile, p0⟩] : List (View.Piece (Elt F) S1x1024x1024 .f32)), y ∈ pc.1.set :=
  View.cover_of_tiled [⟨rTile, p0⟩] S1x1024x1024.size (by rfl) y

set_option maxHeartbeats 1000000 in
/-- The body on whole staging buffers: with the four inputs' buffers at read contents `x0 x1 x2 x3` and the output's
    buffer at anything (it is loaded, and the value dropped, before it is stored), it runs to the inputs' buffers as they
    were and the output's at `tile x0 x1 x2 x3`. -/
theorem sound_kernel (c : Dev nD) (E : Set ℕ) (i : grid0.Coords)
    (arg3 : Memref sig .tc .vmem S1x64x1024 .bf16) (harg3 : arg3.IsWhole) (arg4 : Memref sig .tc .vmem S1x64x1024 .bf16) (harg4 : arg4.IsWhole)
    (arg5 : Memref sig .tc .vmem S1x1024x1 .f32) (harg5 : arg5.IsWhole) (arg6 : Memref sig .tc .vmem S1x1x1024 .f32) (harg6 : arg6.IsWhole)
    (arg7 : Memref sig .tc .vmem S1x1024x1024 .f32) (harg7 : arg7.IsWhole)
    (x0 x1 : Vec F S1x64x1024 .bf16) (x2 : Vec F S1x1024x1 .f32) (x3 : Vec F S1x1x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (tile x0 x1 x2 x3)) -∗ K ⟨⟩))
      ⊢ wp frame (wpE (defs₀ (F := F)) Variants.none c none) E (cc0__gaussian_kernel i arg3 harg3 arg4 harg4 arg5 harg5 arg6 harg6 arg7 harg7) K := by
  simp only [cc0__gaussian_kernel_eq_skeleton]; unfold cc0__gaussian_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-! ## The body obligation, at a generic point -/

/-- What the body is called with at point `t`: the invariant, what the core owes, and every window's current staging
    buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the same invariant and debt, every buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's debt pass through unread, and neither changes from a point to the next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program terminates without a fault, every
    window's array ends at what the write-backs leave and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- Neither argument array is a window's array, and both are unscoped. -/
theorem main_arg0_rest : main_arg0 ∈ Pipeline.restRefs sig spec0 := Pipeline.mem_restRefs_of main_arg0 rfl (by decide)
theorem main_arg1_rest : main_arg1 ∈ Pipeline.restRefs sig spec0 := Pipeline.mem_restRefs_of main_arg1 rfl (by decide)

/-- The frame: both argument arrays end as launched. Neither is a window's array, so each ends as the region found it,
    and no host operation before the region wrote it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 main_arg0_rest).trans (V_main_arg0 m c),
      ((h c).2 main_arg1 main_arg1_rest).trans (V_main_arg1 m c)⟩) (run_main m ρ)

end Cert.Kernel.WFrame

end
-- ==== Proof.KData.lean ====
/-
  What the pipelined kernel's frame run and its value are both stated about.

  The kernel is handed four operands through windows: the scaled embedding (bf16) TWICE — window 0 takes, for grid
  point (b, i, j), the 64 × 1024 block of columns of point block `i`, window 1 the block of point block `j` —, the
  column of half-norms (window 2, block `i`) and the row of half-norms (window 3, block `j`); window 4 is the
  1024 × 1024 tile (i, j) of the result for batch `b`.

  `V` is what the core's buffers hold when the kernel is entered (the host operations before it, folded over the
  launch memory); `iblk w t` is window `w`'s block of its array at grid point `t`; `tile` is what the body leaves in the
  output window's buffer, as a function of the four input blocks (its one store, of the body's arithmetic `k0_pay1`);
  `dats` is the pipeline's proof data: every input buffer ends a point holding its block, the output buffer holding the
  tile, nothing is carried from point to point, and the array both windows 0 and 1 read is held in two halves.
-/
import proofs.«152303_j32890859553362_2_alg».proof.Proof.Gen.KernelIdeal.Launch
import proofs.«152303_j32890859553362_2_alg».proof.Proof.Gen.KernelIdeal.Skeleton
import proofs.«152303_j32890859553362_2_alg».proof.Proof.Gen.KernelIdeal.Points
import Idealize.ShloMosaic.Lib.Pipeline.FrameBody

noncomputable section

namespace Cert.KernelIdeal.KFrame

open Idealize.ShloMosaic Idealize.ShloMosaic.TcCoe
open Idealize.SL Idealize.SL.RA Idealize.SL.BI
open scoped Idealize.SL.BI
open Idealize.SL.Sem
open Idealize.ShloMosaic.Rounds
open Idealize.ShloMosaic.Pipeline (Dat Cfg Window)
open Cert.KernelIdeal Cert.KernelIdeal.Gen

variable {F : FTy → Type} [FloatOps F]

variable (m : (ℓ : Loc nD τ sig) → Buf (Elt F) ℓ)

/-- Core `c`'s TensorCore buffers when the kernel is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of each staging buffer, as the body's loads and its store address it. -/
abbrev rEmb : Rect S1x64x1024 := Rect.unit (s := S1x64x1024) ![0, 0, 0] S1x64x1024.size inb_S1x64x1024_S1x64x1024_0_0_0
abbrev rCol : Rect S1x1024x1 := Rect.unit (s := S1x1024x1) ![0, 0, 0] S1x1024x1.size inb_S1x1024x1_S1x1024x1_0_0_0
abbrev rRow : Rect S1x1x1024 := Rect.unit (s := S1x1x1024) ![0, 0, 0] S1x1x1024.size inb_S1x1x1024_S1x1x1024_0_0_0
abbrev rTile : Rect S1x1024x1024 := Rect.unit (s := S1x1024x1024) ![0, 0, 0] S1x1024x1024.size inb_S1x1024x1024_S1x1024x1024_0_0_0

/-- The output window's buffer after the body, from the four input blocks: its one store. -/
def tile (x0 x1 : Vec F S1x64x1024 .bf16) (x2 : Vec F S1x1024x1 .f32) (x3 : Vec F S1x1x1024 .f32) : Vec F S1x1024x1024 .f32 :=
  View.canon [⟨rTile, k0_pay1 (View.ld x0 rEmb) (View.ld x1 rEmb) (View.ld x2 rCol) (View.ld x3 rRow)⟩]

/-- The share each window holds of its array: the array windows 0 and 1 both read is held in two halves. -/
def shareOf : Fin 5 → PosShare TreeShare
  | ⟨0, _⟩ => fullShare.left
  | ⟨1, _⟩ => fullShare.right
  | ⟨2, _⟩ => fullShare
  | ⟨3, _⟩ => fullShare
  | ⟨4, _⟩ => fullShare

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile (iblk m c 0 t) (iblk m c 1 t) (iblk m c 2 t) (iblk m c 3 t)
  Φ _ := Pipeline.scopedRest spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = tile (iblk m c 0 t) (iblk m c 1 t) (iblk m c 2 t) (iblk m c 3 t) := by dsimp only [dats]

end Cert.KernelIdeal.KFrame

end
-- ==== Proof.KSplit.lean ====
/-
  The shares of the windows' arrays.

  The pipelined region has five windows but only four distinct buffers behind their arrays: windows 0 and 1 read one
  array at two different blocks.  At the region's entry each of the four buffers is held whole; the pipeline wants
  each WINDOW's array at that window's share.  The array read twice is cut into its left and right halves, each half
  enough to read it, one half per window; the other three arrays pass whole.
-/
import proofs.«152303_j32890859553362_2_alg».proof.Proof.KData

noncomputable section

namespace Cert.KernelIdeal.KFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Four distinct buffers stand behind the five windows' arrays. -/
theorem arrImage : Finset.univ.image (Pipeline.arrRef spec0) = [main_v5, main_v11, main_v12, main_v13].toFinset := by decide

/-- A conjunction over the buffers behind the windows' arrays, buffer by buffer. -/
theorem bigSep_arrImage {M : Type} [URA M] (Φ : Ref sig .tc → sProp M) :
    bigSep (Finset.univ.image (Pipeline.arrRef spec0)) Φ = iprop(Φ main_v5 ∗ Φ main_v11 ∗ Φ main_v12 ∗ Φ main_v13) :=
  bigSep_eq_bigSepL_of_eq [main_v5, main_v11, main_v12, main_v13] arrImage (by decide) Φ

/-- The four buffers behind the windows' arrays, each held whole, yield every window's array at its share: the array the
    first two windows both read is cut into its left and right halves, one per window; the others pass whole. -/
theorem hsplit (c : Dev nD) : (Pipeline.arrBufs spec0 c (V m c) : sProp 𝕄) ⊢ (dats m 0 c).arrays ((dats m 0 c).arrAt · 0) := by
  unfold Pipeline.arrBufs Dat.arrays
  rw [bigSep_W0, bigSep_arrImage]
  beta_reduce
  rw [show (dats m 0 c).arrAt 0 0 = V m c main_v5 from A_eq m c 0,
    show (dats m 0 c).arrAt 1 0 = V m c main_v5 from A_eq m c 1,
    show (dats m 0 c).arrAt 2 0 = V m c main_v11 from A_eq m c 2,
    show (dats m 0 c).arrAt 3 0 = V m c main_v12 from A_eq m c 3,
    show (dats m 0 c).arrAt 4 0 = V m c main_v13 from A_eq m c 4,
    show (dats m 0 c).share 0 = fullShare.left from rfl,
    show (dats m 0 c).share 1 = fullShare.right from rfl,
    show (dats m 0 c).share 2 = fullShare from rfl,
    show (dats m 0 c).share 3 = fullShare from rfl,
    show (dats m 0 c).share 4 = fullShare from rfl]
  simp only [View.set_whole]
  iintro ⟨H5, H11, H12, H13⟩
  ihave H5' := (pointsTo_share (PosShare.mem_left_op_right fullShare)).1 $$ H5
  icases H5' with ⟨H5l, H5r⟩
  isplitl [H5l]; · iexact H5l
  isplitl [H5r]; · iexact H5r
  isplitl [H11]; · iexact H11
  isplitl [H12]; · iexact H12
  iexact H13

end Cert.KernelIdeal.KFrame

end
-- ==== Proof.KFrame.lean ====
/-
  The frame run of the pipelined kernel program.

  The program is three stretches of host operations followed by one pipelined region on a 4 × 4 × 4 grid with five
  windows.  Windows 0 and 1 read ONE array (the scaled embedding) at two different blocks, so that array cannot be
  held whole by either window: it is held in two halves, one per window, each half enough to read it.

  The proof has four parts.
  * The host prefix: the program up to the region is its three stretches, none of which writes either argument
    array, so the region finds both as launched.
  * The body: at every grid point each input's staging buffer holds the window's block of its array, and the body —
    four whole-buffer loads, one more load of the output buffer whose value is unused, one whole-buffer store —
    leaves the inputs as they were and the output buffer at `tile` of the four blocks.  Because the output buffer
    is loaded before it is stored, it must be held (at anything) on entry.
  * The shares (proved in the module on the arrays' shares, imported here): the four distinct buffers behind the five
    windows' arrays, each held whole, yield each window's array at that window's share — the shared array is cut into
    its left and right halves.
  * The run: the shared-array launch theorem from these, and from its post the two argument arrays — which are no
    window's array — end as the region found them, that is as launched.
-/
import proofs.«152303_j32890859553362_2_alg».proof.Proof.KData
import proofs.«152303_j32890859553362_2_alg».proof.Proof.KSplit
import proofs.«152303_j32890859553362_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.KFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- No host operation allocates a buffer of its own. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the region is its three stretches of host operations; the region is entered with every buffer at
    what they leave (`V`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the first argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
/-- No host operation writes the second argument array either. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-! ## What the inputs' staging buffers hold -/

/-- Each input window's current staging buffer holds the window's block of its array at every grid point, whether the
    block was copied in at that point or at an earlier one (the block index has not moved since). -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-! ## The body -/

/-- The body's one store is of the whole output buffer, so it covers it. -/
theorem cover (p0 : Vec F S1x1024x1024 .f32) (y : S1x1024x1024.Idx) :
    ∃ pc ∈ ([⟨rTile, p0⟩] : List (View.Piece (Elt F) S1x1024x1024 .f32)), y ∈ pc.1.set :=
  View.cover_of_tiled [⟨rTile, p0⟩] S1x1024x1024.size (by rfl) y

set_option maxHeartbeats 1000000 in
/-- The body on whole staging buffers: with the four inputs' buffers at read contents `x0 x1 x2 x3` and the output's
    buffer at anything (it is loaded, and the value dropped, before it is stored), it runs to the inputs' buffers as they
    were and the output's at `tile x0 x1 x2 x3`. -/
theorem sound_kernel (c : Dev nD) (E : Set ℕ) (i : grid0.Coords)
    (arg3 : Memref sig .tc .vmem S1x64x1024 .bf16) (harg3 : arg3.IsWhole) (arg4 : Memref sig .tc .vmem S1x64x1024 .bf16) (harg4 : arg4.IsWhole)
    (arg5 : Memref sig .tc .vmem S1x1024x1 .f32) (harg5 : arg5.IsWhole) (arg6 : Memref sig .tc .vmem S1x1x1024 .f32) (harg6 : arg6.IsWhole)
    (arg7 : Memref sig .tc .vmem S1x1024x1024 .f32) (harg7 : arg7.IsWhole)
    (x0 x1 : Vec F S1x64x1024 .bf16) (x2 : Vec F S1x1024x1 .f32) (x3 : Vec F S1x1x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (tile x0 x1 x2 x3)) -∗ K ⟨⟩))
      ⊢ wp frame (wpE (defs₀ (F := F)) Variants.none c none) E (cc0__gaussian_kernel i arg3 harg3 arg4 harg4 arg5 harg5 arg6 harg6 arg7 harg7) K := by
  simp only [cc0__gaussian_kernel_eq_skeleton]; unfold cc0__gaussian_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-! ## The body obligation, at a generic point -/

/-- What the body is called with at point `t`: the invariant, what the core owes, and every window's current staging
    buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the same invariant and debt, every buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's debt pass through unread, and neither changes from a point to the next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program terminates without a fault, every
    window's array ends at what the write-backs leave and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- Neither argument array is a window's array, and both are unscoped. -/
theorem main_arg0_rest : main_arg0 ∈ Pipeline.restRefs sig spec0 := Pipeline.mem_restRefs_of main_arg0 rfl (by decide)
theorem main_arg1_rest : main_arg1 ∈ Pipeline.restRefs sig spec0 := Pipeline.mem_restRefs_of main_arg1 rfl (by decide)

/-- The frame: both argument arrays end as launched. Neither is a window's array, so each ends as the region found it,
    and no host operation before the region wrote it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 main_arg0_rest).trans (V_main_arg0 m c),
      ((h c).2 main_arg1 main_arg1_rest).trans (V_main_arg1 m c)⟩) (run_main m ρ)

end Cert.KernelIdeal.KFrame

end
-- ==== Proof.RefDefs.lean ====
/-
  The reference's result as one term of its embedding argument: the operations of its program composed, in the
  program's order, under names of their own.

  `sumSqDev x` is the sum over every entry of the squared deviation from the mean (the mean being the total divided
  by the number of entries, 2^20); the variance divides it by the number of entries less one, guarded by a test that
  this divisor is positive (it is: 1048575); `stdOf x` is the variance's square root; `coordOf x` divides every entry
  by it.  `refOut x` is then, for batch `b` and points `i`, `j`:
  `exp (-(max ((|p_i|² + |p_j|² - 2 p_i·p_j) / 64) 0) / 2)` with `p` the columns of `coordOf x`.
-/
import proofs.«152303_j32890859553362_2_alg».proof.ReferenceIdeal

noncomputable section

namespace Cert.ReferenceIdeal.RefValue

open Idealize.ShloMosaic Idealize.ShloMosaic.TcCoe
open Cert.ReferenceIdeal Cert.ReferenceIdeal.Facts₀ Cert.ReferenceIdeal.Facts

variable {F : FTy → Type} [FloatOps F] [Cert.ReferenceIdeal.Facts]

/-- The mean of all entries, as a 1 × 1 × 1 array. -/
def meanOf (x : FVec F S4x64x4096 .f32) : FVec F S1x1x1 .f32 :=
  Host.divf (broadcastInDim S1x1x1 ![] bcast_S_S1x1x1 (Host.reduceAdd x (constant S_ .f32 0x00000000#32) reducesTo_S4x64x4096_S_d0_1_2 h_S_))
    (broadcastInDim S1x1x1 ![] bcast_S_S1x1x1 (constant S_ .f32 0x49800000#32))

/-- Every entry less the mean. -/
def devOf (x : FVec F S4x64x4096 .f32) : FVec F S4x64x4096 .f32 :=
  subf x (broadcastInDim S4x64x4096 ![0, 1, 2] bcast_S1x1x1_S4x64x4096_0_1_2 (meanOf x))

/-- The sum of the squared deviations. -/
def sumSqDev (x : FVec F S4x64x4096 .f32) : FVec F S_ .f32 :=
  Host.reduceAdd (mulf (devOf x) (devOf x)) (constant S_ .f32 0x00000000#32) reducesTo_S4x64x4096_S_d0_1_2 h_S_

/-- The number of entries less one. -/
def countLessOne : FVec F S_ .f32 :=
  subf (constant S_ .f32 0x49800000#32) (sitofp .f32 (constantI S_ 32 1#32))

/-- The variance with one degree of freedom removed. -/
def varOf (x : FVec F S4x64x4096 .f32) : FVec F S_ .f32 :=
  select (cmpf .ogt (countLessOne (F := F)) (constant S_ .f32 0x00000000#32)) (Host.divf (sumSqDev x) countLessOne)
    (id (constant S_ .f32 0x7FC00000#32))

/-- The standard deviation. -/
def stdOf (x : FVec F S4x64x4096 .f32) : FVec F S_ .f32 := Host.sqrt (varOf x)

/-- The embedding divided by its standard deviation. -/
def coordOf (x : FVec F S4x64x4096 .f32) : FVec F S4x64x4096 .f32 :=
  Host.divf x (broadcastInDim S4x64x4096 ![] bcast_S_S4x64x4096 (stdOf x))

/-- Each point's sum of squares. -/
def sqOf (u : FVec F S4x64x4096 .f32) : FVec F S4x4096 .f32 :=
  Host.reduceAdd (mulf u u) (constant S_ .f32 0x00000000#32) reducesTo_S4x64x4096_S4x4096_d1 h_S_

/-- The result from the divided embedding `u`. -/
def outOf (u : FVec F S4x64x4096 .f32) : FVec F S4x4096x4096 .f32 :=
  Host.exp (Host.divf (Host.negf (maximumf
    (Host.divf
      (subf
        (addf (broadcastInDim S4x4096x4096 ![0, 1, 2] bcast_S4x4096x1_S4x4096x4096_0_1_2 (broadcastInDim S4x4096x1 ![0, 1] bcast_S4x4096_S4x4096x1_0_1 (sqOf u)))
              (broadcastInDim S4x4096x4096 ![0, 1, 2] bcast_S4x1x4096_S4x4096x4096_0_1_2 (broadcastInDim S4x1x4096 ![0, 2] bcast_S4x4096_S4x1x4096_0_2 (sqOf u))))
        (mulf (broadcastInDim S4x4096x4096 ![] bcast_S_S4x4096x4096 (constant S_ .f32 0x40000000#32))
              (Host.dotGeneral dot_S4x64x4096_S4x64x4096_S4x4096x4096_1_1_2_2_0_0 none u u)))
      (broadcastInDim S4x4096x4096 ![] bcast_S_S4x4096x4096 (constant S_ .f32 0x42800000#32)))
    (broadcastInDim S4x4096x4096 ![] bcast_S_S4x4096x4096 (constant S_ .f32 0x00000000#32))))
    (broadcastInDim S4x4096x4096 ![] bcast_S_S4x4096x4096 (constant S_ .f32 0x40000000#32)))

/-- The reference's result from its embedding argument. -/
def refOut (x : FVec F S4x64x4096 .f32) : FVec F S4x4096x4096 .f32 := outOf (coordOf x)

end Cert.ReferenceIdeal.RefValue

end
-- ==== Proof.RefRun.lean ====
/-
  What the reference program leaves in memory.  The program is a straight line once its calls are read as the callee's
  body substituted at the call site: the scalar one, then the twenty-one operations that compute the standard
  deviation (the mean, the deviations, their squares summed, the divisor "count less one", the guarded division,
  the square root), then the twenty-six operations of the main function proper (the division by the standard
  deviation, the points' squared norms, the pairwise inner products, the squared distances over the feature count,
  clamped at zero, halved with the sign changed, exponentiated).  Run in that order from any memory, every
  buffer ends at the composition of the operations that lead to it; at the result buffer that composition is
  `refOut` of the embedding argument, and the two argument buffers are written by no operation.
-/
import proofs.«152303_j32890859553362_2_alg».proof.Proof.RefDefs
import proofs.«152303_j32890859553362_2_alg».proof.Proof.Gen.ReferenceIdeal
import Idealize.ShloMosaic.Lib.StableHlo.Run

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- The forty-eight operations in program order: the scalar one; the standard deviation's twenty-one, each over the buffer the
    call site gives it; the main function's own twenty-six. -/
abbrev ops : List (HloOp τ sig (Elt F)) :=
  [ nullary main_c (constantI S_ 32 1#32),
    TRef.nullary (.of main_call0_call0_cst : TRef sig ⟨S_, .f32⟩) (constant S_ .f32 0x00000000#32),
    TRef.binary (.of main_arg1 : TRef sig ⟨S4x64x4096, .f32⟩) (.of main_call0_call0_cst : TRef sig ⟨S_, .f32⟩) (.of main_call0_call0_v0 : TRef sig ⟨S_, .f32⟩) (fun x v => Host.reduceAdd x v reducesTo_S4x64x4096_S_d0_1_2 h_S_),
    TRef.unary (.of main_call0_call0_v0 : TRef sig ⟨S_, .f32⟩) (.of main_call0_call0_v1 : TRef sig ⟨S1x1x1, .f32⟩) (broadcastInDim S1x1x1 ![] bcast_S_S1x1x1),
    TRef.nullary (.of main_call0_call0_cst_0 : TRef sig ⟨S_, .f32⟩) (constant S_ .f32 0x49800000#32),
    TRef.unary (.of main_call0_call0_cst_0 : TRef sig ⟨S_, .f32⟩) (.of main_call0_call0_v2 : TRef sig ⟨S1x1x1, .f32⟩) (broadcastInDim S1x1x1 ![] bcast_S_S1x1x1),
    TRef.binary (.of main_call0_call0_v1 : TRef sig ⟨S1x1x1, .f32⟩) (.of main_call0_call0_v2 : TRef sig ⟨S1x1x1, .f32⟩) (.of main_call0_call0_v3 : TRef sig ⟨S1x1x1, .f32⟩) Host.divf,
    TRef.unary (.of main_call0_call0_v3 : TRef sig ⟨S1x1x1, .f32⟩) (.of main_call0_call0_v4 : TRef sig ⟨S4x64x4096, .f32⟩) (broadcastInDim S4x64x4096 ![0, 1, 2] bcast_S1x1x1_S4x64x4096_0_1_2),
    TRef.binary (.of main_arg1 : TRef sig ⟨S4x64x4096, .f32⟩) (.of main_call0_call0_v4 : TRef sig ⟨S4x64x4096, .f32⟩) (.of main_call0_call0_v5 : TRef sig ⟨S4x64x4096, .f32⟩) subf,
    TRef.binary (.of main_call0_call0_v5 : TRef sig ⟨S4x64x4096, .f32⟩) (.of main_call0_call0_v5 : TRef sig ⟨S4x64x4096, .f32⟩) (.of main_call0_call0_v6 : TRef sig ⟨S4x64x4096, .f32⟩) mulf,
    TRef.unary (.of main_c : TRef sig ⟨S_, .i32⟩) (.of main_call0_call0_v7 : TRef sig ⟨S_, .f32⟩) (sitofp .f32),
    TRef.nullary (.of main_call0_call0_cst_1 : TRef sig ⟨S_, .f32⟩) (constant S_ .f32 0x49800000#32),
    TRef.binary (.of main_call0_call0_cst_1 : TRef sig ⟨S_, .f32⟩) (.of main_call0_call0_v7 : TRef sig ⟨S_, .f32⟩) (.of main_call0_call0_v8 : TRef sig ⟨S_, .f32⟩) subf,
    TRef.nullary (.of main_call0_call0_cst_2 : TRef sig ⟨S_, .f32⟩) (constant S_ .f32 0x00000000#32),
    TRef.binary (.of main_call0_call0_v6 : TRef sig ⟨S4x64x4096, .f32⟩) (.of main_call0_call0_cst_2 : TRef sig ⟨S_, .f32⟩) (.of main_call0_call0_v9 : TRef sig ⟨S_, .f32⟩) (fun x v => Host.reduceAdd x v reducesTo_S4x64x4096_S_d0_1_2 h_S_),
    TRef.binary (.of main_call0_call0_v9 : TRef sig ⟨S_, .f32⟩) (.of main_call0_call0_v8 : TRef sig ⟨S_, .f32⟩) (.of main_call0_call0_v10 : TRef sig ⟨S_, .f32⟩) Host.divf,
    TRef.nullary (.of main_call0_call0_cst_3 : TRef sig ⟨S_, .f32⟩) (constant S_ .f32 0x00000000#32),
    TRef.binary (.of main_call0_call0_v8 : TRef sig ⟨S_, .f32⟩) (.of main_call0_call0_cst_3 : TRef sig ⟨S_, .f32⟩) (.of main_call0_call0_v11 : TRef sig ⟨S_, .i1⟩) (cmpf .ogt),
    TRef.nullary (.of main_call0_call0_cst_4 : TRef sig ⟨S_, .f32⟩) (constant S_ .f32 0x7FC00000#32),
    TRef.unary (.of main_call0_call0_cst_4 : TRef sig ⟨S_, .f32⟩) (.of main_call0_call0_call0_v0 : TRef sig ⟨S_, .f32⟩) id,
    TRef.ternary (.of main_call0_call0_v11 : TRef sig ⟨S_, .i1⟩) (.of main_call0_call0_v10 : TRef sig ⟨S_, .f32⟩) (.of main_call0_call0_call0_v0 : TRef sig ⟨S_, .f32⟩) (.of main_call0_v0 : TRef sig ⟨S_, .f32⟩) select,
    TRef.unary (.of main_call0_v0 : TRef sig ⟨S_, .f32⟩) (.of main_v0 : TRef sig ⟨S_, .f32⟩) Host.sqrt,
    unary main_v0 main_v1 (broadcastInDim S4x64x4096 ![] bcast_S_S4x64x4096 : (⟨S_, .f32⟩ : BufTy).Contents (Elt F) → (⟨S4x64x4096, .f32⟩ : BufTy).Contents (Elt F)),
    binary main_arg1 main_v1 main_v2 (Host.divf : (⟨S4x64x4096, .f32⟩ : BufTy).Contents (Elt F) → (⟨S4x64x4096, .f32⟩ : BufTy).Contents (Elt F) → (⟨S4x64x4096, .f32⟩ : BufTy).Contents (Elt F)),
    binary main_v2 main_v2 main_v3 (mulf : (⟨S4x64x4096, .f32⟩ : BufTy).Contents (Elt F) → (⟨S4x64x4096, .f32⟩ : BufTy).Contents (Elt F) → (⟨S4x64x4096, .f32⟩ : BufTy).Contents (Elt F)),
    nullary main_cst (constant S_ .f32 0x00000000#32),
    binary main_v3 main_cst main_v4 ((fun x v => Host.reduceAdd x v reducesTo_S4x64x4096_S4x4096_d1 h_S_) : (⟨S4x64x4096, .f32⟩ : BufTy).Contents (Elt F) → (⟨S_, .f32⟩ : BufTy).Contents (Elt F) → (⟨S4x4096, .f32⟩ : BufTy).Contents (Elt F)),
    binary main_v2 main_v2 main_v5 ((fun l r => Host.dotGeneral dot_S4x64x4096_S4x64x4096_S4x4096x4096_1_1_2_2_0_0 none l r) : (⟨S4x64x4096, .f32⟩ : BufTy).Contents (Elt F) → (⟨S4x64x4096, .f32⟩ : BufTy).Contents (Elt F) → (⟨S4x4096x4096, .f32⟩ : BufTy).Contents (Elt F)),
    unary main_v4 main_v6 (broadcastInDim S4x4096x1 ![0, 1] bcast_S4x4096_S4x4096x1_0_1 : (⟨S4x4096, .f32⟩ : BufTy).Contents (Elt F) → (⟨S4x4096x1, .f32⟩ : BufTy).Contents (Elt F)),
    unary main_v4 main_v7 (broadcastInDim S4x1x4096 ![0, 2] bcast_S4x4096_S4x1x4096_0_2 : (⟨S4x4096, .f32⟩ : BufTy).Contents (Elt F) → (⟨S4x1x4096, .f32⟩ : BufTy).Contents (Elt F)),
    unary main_v6 main_v8 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    unary main_v7 main_v9 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    binary main_v8 main_v9 main_v10 (addf : (⟨S4x4096x4096, .f32⟩ : BufTy).Contents (Elt F) → (⟨S4x4096x4096, .f32⟩ : BufTy).Contents (Elt F) → (⟨S4x4096x4096, .f32⟩ : BufTy).Contents (Elt F)),
    nullary main_cst_0 (constant S_ .f32 0x40000000#32),
    unary main_cst_0 main_v11 (broadcastInDim S4x4096x4096 ![] bcast_S_S4x4096x4096 : (⟨S_, .f32⟩ : BufTy).Contents (Elt F) → (⟨S4x4096x4096, .f32⟩ : BufTy).Contents (Elt F)),
    binary main_v11 main_v5 main_v12 (mulf : (⟨S4x4096x4096, .f32⟩ : BufTy).Contents (Elt F) → (⟨S4x4096x4096, .f32⟩ : BufTy).Contents (Elt F) → (⟨S4x4096x4096, .f32⟩ : BufTy).Contents (Elt F)),
    binary main_v10 main_v12 main_v13 (subf : (⟨S4x4096x4096, .f32⟩ : BufTy).Contents (Elt F) → (⟨S4x4096x4096, .f32⟩ : BufTy).Contents (Elt F) → (⟨S4x4096x4096, .f32⟩ : BufTy).Contents (Elt F)),
    nullary main_cst_1 (constant S_ .f32 0x42800000#32),
    unary main_cst_1 main_v14 (broadcastInDim S4x4096x4096 ![] bcast_S_S4x4096x4096 : (⟨S_, .f32⟩ : BufTy).Contents (Elt F) → (⟨S4x4096x4096, .f32⟩ : BufTy).Contents (Elt F)),
    binary main_v13 main_v14 main_v15 (Host.divf : (⟨S4x4096x4096, .f32⟩ : BufTy).Contents (Elt F) → (⟨S4x4096x4096, .f32⟩ : BufTy).Contents (Elt F) → (⟨S4x4096x4096, .f32⟩ : BufTy).Contents (Elt F)),
    nullary main_cst_2 (constant S_ .f32 0x00000000#32),
    unary main_cst_2 main_v16 (broadcastInDim S4x4096x4096 ![] bcast_S_S4x4096x4096 : (⟨S_, .f32⟩ : BufTy).Contents (Elt F) → (⟨S4x4096x4096, .f32⟩ : BufTy).Contents (Elt F)),
    binary main_v15 main_v16 main_v17 (maximumf : (⟨S4x4096x4096, .f32⟩ : BufTy).Contents (Elt F) → (⟨S4x4096x4096, .f32⟩ : BufTy).Contents (Elt F) → (⟨S4x4096x4096, .f32⟩ : BufTy).Contents (Elt F)),
    unary main_v17 main_v18 (Host.negf : (⟨S4x4096x4096, .f32⟩ : BufTy).Contents (Elt F) → (⟨S4x4096x4096, .f32⟩ : BufTy).Contents (Elt F)),
    nullary main_cst_3 (constant S_ .f32 0x40000000#32),
    unary main_cst_3 main_v19 (broadcastInDim S4x4096x4096 ![] bcast_S_S4x4096x4096 : (⟨S_, .f32⟩ : BufTy).Contents (Elt F) → (⟨S4x4096x4096, .f32⟩ : BufTy).Contents (Elt F)),
    binary main_v18 main_v19 main_v20 (Host.divf : (⟨S4x4096x4096, .f32⟩ : BufTy).Contents (Elt F) → (⟨S4x4096x4096, .f32⟩ : BufTy).Contents (Elt F) → (⟨S4x4096x4096, .f32⟩ : BufTy).Contents (Elt F)),
    unary main_v20 main_v21 (Host.exp : (⟨S4x4096x4096, .f32⟩ : BufTy).Contents (Elt F) → (⟨S4x4096x4096, .f32⟩ : BufTy).Contents (Elt F)) ]

set_option maxRecDepth 2048 in
/-- The program is that straight line: each call replaced by its callee's body and the sequencing re-associated,
    both sides are the same chain of steps. -/
theorem main_eq (c : Dev nD) : main (F := F) c = seq ops := by
  simp only [main, fn_std.body, fn_var.body, fn_where.body, seq, bind_assoc, pure_bind]

/-- No buffer and no semaphore of this signature is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., binary_bufs_sub .., nullary_bufs_sub .., binary_bufs_sub ..,
    nullary_bufs_sub .., unary_bufs_sub .., ternary_bufs_sub .., unary_bufs_sub .., unary_bufs_sub .., binary_bufs_sub ..,
    binary_bufs_sub .., nullary_bufs_sub .., binary_bufs_sub .., binary_bufs_sub .., unary_bufs_sub .., unary_bufs_sub ..,
    unary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., unary_bufs_sub .., nullary_bufs_sub .., unary_bufs_sub .., binary_bufs_sub .., unary_bufs_sub ..⟩

/-- The fold at the result buffer is `refOut` of the embedding argument's contents. -/
theorem out_eq (V : Valuation τ sig (Elt F)) :
    after ops V (main_v21 : DevRef τ sig) = refOut (F := F) (V (main_arg1 : DevRef τ sig)) := by
  after_results_simp
  rfl

/-- No operation writes either argument buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, for any float values, from any memory with zero counters: every weakly fair execution of the
    program terminates with the result buffer at `refOut` of the embedding argument's launch contents, and both
    argument buffers as they were. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v21) = refOut (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v21).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.KDefs.lean ====
/-
  The kernel program's values as terms of its embedding argument: the host operations before the kernel composed,
  in the program's order, and the whole result array the kernel's tiles make up.

  The host side divides the embedding by its standard deviation (`coordOf`, the same operations as the reference's),
  scales it by one eighth and narrows it to bf16 (`embScaled` — at exact arithmetic the narrowing changes nothing),
  and takes minus one half of each point's sum of squares of the scaled coordinates (`halfNorm`), laid out once as a
  column per batch (`colOf`) and once as a row (`rowOf`).  The kernel's result at batch `b`, points `i`, `j` is
  `exp (min ((col b i + row b j) + e_i·e_j) 0)` with `e` the columns of the scaled embedding: `kerOutOf`.
-/
import proofs.«152303_j32890859553362_2_alg».proof.KernelIdeal
import Idealize.ShloMosaic.PureOps.Ideal
import Idealize.ShloMosaic.Lib.ValueIdx

noncomputable section

namespace Cert.KernelIdeal.KValue

open Idealize.ShloMosaic Idealize.ShloMosaic.TcCoe Idealize.ShloMosaic.ValueIdx
open Cert.KernelIdeal Cert.KernelIdeal.Facts₀ Cert.KernelIdeal.Facts
open scoped BigOperators

variable {F : FTy → Type} [FloatOps F] [Cert.KernelIdeal.Facts]

/-- The mean of all entries, as a 1 × 1 × 1 array. -/
def meanOf (x : FVec F S4x64x4096 .f32) : FVec F S1x1x1 .f32 :=
  Host.divf (broadcastInDim S1x1x1 ![] bcast_S_S1x1x1 (Host.reduceAdd x (constant S_ .f32 0x00000000#32) reducesTo_S4x64x4096_S_d0_1_2 h_S_))
    (broadcastInDim S1x1x1 ![] bcast_S_S1x1x1 (constant S_ .f32 0x49800000#32))

/-- Every entry less the mean. -/
def devOf (x : FVec F S4x64x4096 .f32) : FVec F S4x64x4096 .f32 :=
  subf x (broadcastInDim S4x64x4096 ![0, 1, 2] bcast_S1x1x1_S4x64x4096_0_1_2 (meanOf x))

/-- The sum of the squared deviations. -/
def sumSqDev (x : FVec F S4x64x4096 .f32) : FVec F S_ .f32 :=
  Host.reduceAdd (mulf (devOf x) (devOf x)) (constant S_ .f32 0x00000000#32) reducesTo_S4x64x4096_S_d0_1_2 h_S_

/-- The number of entries less one. -/
def countLessOne : FVec F S_ .f32 :=
  subf (constant S_ .f32 0x49800000#32) (sitofp .f32 (constantI S_ 32 1#32))

/-- The variance with one degree of freedom removed. -/
def varOf (x : FVec F S4x64x4096 .f32) : FVec F S_ .f32 :=
  select (cmpf .ogt (countLessOne (F := F)) (constant S_ .f32 0x00000000#32)) (Host.divf (sumSqDev x) countLessOne)
    (id (constant S_ .f32 0x7FC00000#32))

/-- The standard deviation. -/
def stdOf (x : FVec F S4x64x4096 .f32) : FVec F S_ .f32 := Host.sqrt (varOf x)

/-- The embedding divided by its standard deviation. -/
def coordOf (x : FVec F S4x64x4096 .f32) : FVec F S4x64x4096 .f32 :=
  Host.divf x (broadcastInDim S4x64x4096 ![] bcast_S_S4x64x4096 (stdOf x))

/-- The divided embedding scaled by one eighth, narrowed to bf16: the array both of the kernel's first two windows read. -/
def embScaled (u : FVec F S4x64x4096 .f32) : FVec F S4x64x4096 .bf16 :=
  truncf .bf16 (mulf u (broadcastInDim S4x64x4096 ![] bcast_S_S4x64x4096 (constant S_ .f32 0x3E000000#32))) bitsLt_bf16_f32

/-- Minus one half of each point's sum of squares of the scaled coordinates. -/
def halfNorm (e : FVec F S4x64x4096 .bf16) : FVec F S4x4096 .f32 :=
  mulf (broadcastInDim S4x4096 ![] bcast_S_S4x4096 (constant S_ .f32 0xBF000000#32))
    (Host.reduceAdd (mulf (extf .f32 e bitsLt_bf16_f32) (extf .f32 e bitsLt_bf16_f32)) (constant S_ .f32 0x00000000#32)
      reducesTo_S4x64x4096_S4x4096_d1 h_S_)

/-- The half-norms as one column per batch. -/
def colOf (h : FVec F S4x4096 .f32) : FVec F S4x4096x1 .f32 :=
  broadcastInDim S4x4096x1 ![0, 1] bcast_S4x4096_S4x4096x1_0_1 h

/-- The half-norms as one row per batch. -/
def rowOf (h : FVec F S4x4096 .f32) : FVec F S4x1x4096 .f32 :=
  broadcastInDim S4x1x4096 ![0, 2] bcast_S4x4096_S4x1x4096_0_2 h

/-- One entry of the kernel's result from the three arrays it is handed, at exact arithmetic. -/
def kerEntryOf (e : FVec Ideal S4x64x4096 .bf16) (col : FVec Ideal S4x4096x1 .f32) (row : FVec Ideal S4x1x4096 .f32)
    (b : Fin 4) (i j : Fin 4096) : EReal :=
  Ideal.exp (min ((col (ix3 b i (0 : Fin 1)) + row (ix3 b (0 : Fin 1) j))
    + (Ideal.ofBits .f32 0x00000000#32 + ∑ f : Fin 64, e (ix3 b f i) * e (ix3 b f j))) (Ideal.ofBits .f32 0x00000000#32))

/-- The kernel's whole result array from the three arrays it is handed, at exact arithmetic. -/
def kerOutOf (e : FVec Ideal S4x64x4096 .bf16) (col : FVec Ideal S4x4096x1 .f32) (row : FVec Ideal S4x1x4096 .f32) :
    FVec Ideal S4x4096x4096 .f32 :=
  fun idx => kerEntryOf e col row (idx 0) (idx 1) (idx 2)

/-- The kernel program's result from its embedding argument, at exact arithmetic. -/
def kerOut (x : FVec Ideal S4x64x4096 .f32) : FVec Ideal S4x4096x4096 .f32 :=
  kerOutOf (embScaled (coordOf x)) (colOf (halfNorm (embScaled (coordOf x)))) (rowOf (halfNorm (embScaled (coordOf x))))

end Cert.KernelIdeal.KValue

end
-- ==== Proof.Spec.lean ====
/-
  The Gaussian adjacency of a batch of point sets, in the two arrangements that are to be compared.

  For a batch element `b` the points are the columns of `u b`, a 64 × 4096 array of extended reals (the
  embedding divided by its standard deviation).  With `|p|²` the sum of a column's squares and `p·q` the sum of
  the products of two columns, the entry for points `i`, `j` is `exp (-(max ((|p_i|² + |p_j|² - 2 p_i·p_j) / 64) 0) / 2)`.

  `refEntry` is that expression as written.  `kerEntry` scales every coordinate by 1/8 first, so that the product of
  two scaled columns is `p_i·p_j / 64` and minus one half of a scaled column's squares is `-|p_i|² / 128`, adds the two
  halves and the product, caps the sum at zero and exponentiates.  The two agree whenever every coordinate is a real
  number (`Algebra.lean`); at infinite coordinates they do not (`∞ + ∞ - ∞` and `-∞ + -∞ + ∞` take different
  conventional values), which is why the coordinates' finiteness — the standard deviation being positive — is part of
  the claim's domain.

  The float words are kept as words (`Ideal.ofBits`): `w0` is 0, `wEighth` 1/8, `wNegHalf` -1/2, `wTwo` 2, `w64` 64.
  Every sum is written as the operation computes it, the initial value first.
-/
import Idealize.ShloMosaic.PureOps.Ideal
import Idealize.ShloMosaic.Lib.ValueIdx

noncomputable section

namespace Cert.Gauss

open Idealize.ShloMosaic Idealize.ShloMosaic.ValueIdx
open scoped BigOperators

/-- The embedding's shape: batch 4, 64 coordinates, 4096 points. -/
abbrev SE : Shape := ⟨3, ![4, 64, 4096]⟩

abbrev w0 : EReal := Ideal.ofBits .f32 0x00000000#32
abbrev wEighth : EReal := Ideal.ofBits .f32 0x3E000000#32
abbrev wNegHalf : EReal := Ideal.ofBits .f32 0xBF000000#32
abbrev wTwo : EReal := Ideal.ofBits .f32 0x40000000#32
abbrev w64 : EReal := Ideal.ofBits .f32 0x42800000#32

/-- The sum of the squares of point `i`'s coordinates. -/
def sqNorm (u : SE.Idx → EReal) (b : Fin 4) (i : Fin 4096) : EReal :=
  w0 + ∑ f : Fin 64, u (ix3 b f i) * u (ix3 b f i)

/-- The sum of the products of the coordinates of points `i` and `j`. -/
def inner (u : SE.Idx → EReal) (b : Fin 4) (i j : Fin 4096) : EReal :=
  w0 + ∑ f : Fin 64, u (ix3 b f i) * u (ix3 b f j)

/-- The entry as the reference writes it. -/
def refEntry (u : SE.Idx → EReal) (b : Fin 4) (i j : Fin 4096) : EReal :=
  Ideal.exp (Ideal.div (-(max (Ideal.div ((sqNorm u b i + sqNorm u b j) - wTwo * inner u b i j) w64) w0)) wTwo)

/-- The coordinates scaled by one eighth. -/
def scaled (u : SE.Idx → EReal) : SE.Idx → EReal := fun k => u k * wEighth

/-- Minus one half of a scaled point's squares. -/
def bias (u : SE.Idx → EReal) (b : Fin 4) (i : Fin 4096) : EReal :=
  wNegHalf * sqNorm (scaled u) b i

/-- The entry as the kernel computes it. -/
def kerEntry (u : SE.Idx → EReal) (b : Fin 4) (i j : Fin 4096) : EReal :=
  Ideal.exp (min ((bias u b i + bias u b j) + inner (scaled u) b i j) w0)

end Cert.Gauss

end
-- ==== Proof.KRead.lean ====
/-
  The kernel side read at an index, at exact arithmetic.

  The body works on one tile: it is handed two 64 × 1024 blocks of the scaled embedding (the columns of point block
  `i` and of point block `j`), a 1024 × 1 column and a 1 × 1024 row of half-norms, and leaves the 1024 × 1024 tile whose
  entry `(p, q)` is `exp (min ((col p + row q) + (0 + Σ_f e_i(f, p) · e_j(f, q))) 0)`.  Reading that off needs only how
  each layout step moves an index: dropping or adding a leading unit axis keeps the remaining coordinates, spreading a
  column over the columns keeps the row coordinate, spreading a row over the rows keeps the column coordinate, and the
  product contracting the first axis of both blocks sums over that axis's 64 coordinates.  The zeros stay the float
  word for zero throughout, so both sides carry the same word and nothing is evaluated.

  The host side before the kernel is read the same way: the scaled embedding is the coordinate times the word for one
  eighth, a half-norm is the word for minus one half times (the zero word plus the sum over the 64 coordinates of the
  squares), and the two layouts of the half-norms only rename the index.  Put together, the entry built from these
  arrays is the kernel's arrangement of the specification, word for word.
-/
import proofs.«152303_j32890859553362_2_alg».proof.Proof.KDefs
import proofs.«152303_j32890859553362_2_alg».proof.Proof.KData
import proofs.«152303_j32890859553362_2_alg».proof.Proof.Spec
import proofs.«152303_j32890859553362_2_alg».proof.Proof.Gen.KernelIdeal
import proofs.«152303_j32890859553362_2_alg».proof.Proof.Gen.KernelIdeal.Skeleton
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.Lib.Pipeline.FrameBody

noncomputable section

namespace Cert.KernelIdeal.KValue

open Idealize.ShloMosaic Idealize.ShloMosaic.ValueIdx
open Cert.KernelIdeal Cert.KernelIdeal.Facts₀ Cert.KernelIdeal.Facts
open scoped BigOperators

variable [Cert.KernelIdeal.Facts]

/-! ### The tile -/

/-- The three zero offsets of a whole-buffer rectangle, as the constant function. -/
theorem zero3 : (![0, 0, 0] : Fin 3 → Nat) = fun _ => 0 := by
  funext a; match a with | ⟨0, _⟩ => rfl | ⟨1, _⟩ => rfl | ⟨2, _⟩ => rfl

/-- The tile is the body's arithmetic applied to the four blocks: every load and the one store address a whole buffer. -/
theorem tile_eq_pay (x0 x1 : FVec Ideal S1x64x1024 .bf16) (x2 : FVec Ideal S1x1024x1 .f32) (x3 : FVec Ideal S1x1x1024 .f32) :
    Cert.KernelIdeal.KFrame.tile (F := Ideal) x0 x1 x2 x3 = Cert.KernelIdeal.Gen.k0_pay1 (F := Ideal) x0 x1 x2 x3 := by
  unfold Cert.KernelIdeal.KFrame.tile
  rw [View.canon_unit_zero zero3]
  simp only [View.ld_unit_zero (S := S1x64x1024) zero3, View.ld_unit_zero (S := S1x1024x1) zero3, View.ld_unit_zero (S := S1x1x1024) zero3]

/-- A column `[a, 1]` broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of the two blocks: contracting the coordinate axis of both, the entry at `(p, q)` is the accumulator's
    entry plus the sum over the 64 coordinates of the products of columns `p` and `q`. -/
theorem blockProduct_apply (v1 v3 : FVec Ideal S64x1024 .bf16) (acc : FVec Ideal S1024x1024 .f32) (p q : Fin 1024) :
    matmul dot_S64x1024_S64x1024_S1024x1024_0_0_1_1_n_n none v1 v3 acc (ix2 p q)
      = acc (ix2 p q) + ∑ f : Fin 64, v1 (ix2 f p) * v3 (ix2 f q) := by
  refine (Ideal.matmul_apply dot_S64x1024_S64x1024_S1024x1024_0_0_1_1_n_n none v1 v3 acc (ix2 p q)).trans ?_
  refine congrArg (acc (ix2 p q) + ·) ?_
  rw [← Equiv.sum_comp (contrEquiv1 dot_S64x1024_S64x1024_S1024x1024_0_0_1_1_n_n 64 rfl rfl).symm]
  refine Finset.sum_congr rfl fun f _ => ?_
  have cf := contrEquiv1_symm_val dot_S64x1024_S64x1024_S1024x1024_0_0_1_1_n_n 64 rfl rfl f
  have hl : dot_S64x1024_S64x1024_S1024x1024_0_0_1_1_n_n.lhsIdx (ix2 p q)
      ((contrEquiv1 dot_S64x1024_S64x1024_S1024x1024_0_0_1_1_n_n 64 rfl rfl).symm f) = ix2 f p := by
    funext ax; apply Fin.ext
    match ax with
    | ⟨0, _⟩ => simp [DotDims.lhsIdx, dot_S64x1024_S64x1024_S1024x1024_0_0_1_1_n_n]; exact cf
    | ⟨1, _⟩ => simp [DotDims.lhsIdx, dot_S64x1024_S64x1024_S1024x1024_0_0_1_1_n_n]; rfl
  have hr : dot_S64x1024_S64x1024_S1024x1024_0_0_1_1_n_n.rhsIdx (ix2 p q)
      ((contrEquiv1 dot_S64x1024_S64x1024_S1024x1024_0_0_1_1_n_n 64 rfl rfl).symm f) = ix2 f q := by
    funext ax; apply Fin.ext
    match ax with
    | ⟨0, _⟩ => simp [DotDims.rhsIdx, dot_S64x1024_S64x1024_S1024x1024_0_0_1_1_n_n]; exact cf
    | ⟨1, _⟩ => simp [DotDims.rhsIdx, dot_S64x1024_S64x1024_S1024x1024_0_0_1_1_n_n]; rfl
  rw [hl, hr]

/-- The body's arithmetic read at `(0, p, q)`: the column's entry at `p` plus the row's entry at `q`, plus the product of
    columns `p` and `q` of the two blocks accumulated into the zero word, capped above at the zero word, exponentiated. -/
theorem pay_apply (x0 x1 : FVec Ideal S1x64x1024 .bf16) (x2 : FVec Ideal S1x1024x1 .f32) (x3 : FVec Ideal S1x1x1024 .f32)
    (p q : Fin 1024) :
    Cert.KernelIdeal.Gen.k0_pay1 (F := Ideal) x0 x1 x2 x3 (ix3 (0 : Fin 1) p q)
      = Ideal.exp (min ((x2 (ix3 (0 : Fin 1) p (0 : Fin 1)) + x3 (ix3 (0 : Fin 1) (0 : Fin 1) q))
          + (Ideal.ofBits .f32 0x00000000#32 + ∑ f : Fin 64, x0 (ix3 (0 : Fin 1) f p) * x1 (ix3 (0 : Fin 1) f q)))
          (Ideal.ofBits .f32 0x00000000#32)) := by
  unfold Cert.KernelIdeal.Gen.k0_pay1
  refine (shapeCast_ab_1ab_apply _ _ (0 : Fin 1) p q).trans ?_
  refine congrArg Ideal.exp ?_
  refine congrArg (min · (Ideal.ofBits .f32 0x00000000#32)) ?_
  refine congrArg₂ (· + ·) (congrArg₂ (· + ·) ?_ ?_) ?_
  · refine (broadcastTo_a1_ab_apply _ _ p q).trans ?_
    exact shapeCast_1ab_ab_apply x2 _ p (0 : Fin 1)
  · refine (broadcastTo_1b_ab_apply _ _ p q).trans ?_
    exact shapeCast_1ab_ab_apply x3 _ (0 : Fin 1) q
  · refine (blockProduct_apply _ _ _ p q).trans ?_
    refine congrArg (Ideal.ofBits .f32 0x00000000#32 + ·) ?_
    refine Finset.sum_congr rfl fun f _ => ?_
    exact congrArg₂ (· * ·) (shapeCast_1ab_ab_apply x0 _ f p) (shapeCast_1ab_ab_apply x1 _ f q)

/-- The body's tile read at (0, p, q). -/
theorem tile_apply (x0 x1 : FVec Ideal S1x64x1024 .bf16) (x2 : FVec Ideal S1x1024x1 .f32) (x3 : FVec Ideal S1x1x1024 .f32) (p q : Fin 1024) :
    Cert.KernelIdeal.KFrame.tile (F := Ideal) x0 x1 x2 x3 (ix3 (0 : Fin 1) p q)
      = Ideal.exp (min ((x2 (ix3 (0 : Fin 1) p (0 : Fin 1)) + x3 (ix3 (0 : Fin 1) (0 : Fin 1) q))
          + (Ideal.ofBits .f32 0x00000000#32 + ∑ f : Fin 64, x0 (ix3 (0 : Fin 1) f p) * x1 (ix3 (0 : Fin 1) f q))) (Ideal.ofBits .f32 0x00000000#32)) := by
  rw [tile_eq_pay]
  exact pay_apply x0 x1 x2 x3 p q

/-! ### The arrays the kernel is handed -/

/-- The scaled embedding at an index: the coordinate times the word for one eighth (narrowing to sixteen bits changes
    nothing at exact arithmetic). -/
theorem embScaled_apply (u : FVec Ideal S4x64x4096 .f32) (k : S4x64x4096.Idx) :
    embScaled (F := Ideal) u k = Cert.Gauss.scaled u k := by
  unfold embScaled Cert.Gauss.scaled
  refine (truncf_apply (φ := .f32) (ψ := .bf16) _ bitsLt_bf16_f32 k).trans ?_
  refine (mulf_apply (φ := .f32) _ _ k).trans ?_
  refine congrArg (u k * ·) ?_
  exact (broadcastInDim_scalar_apply _ _ k).trans (constant_apply (φ := .f32) _ ix0)

/-- Summing a 4 × 64 × 4096 array over its middle axis: the witness that names the inserted index. -/
theorem reduces_mid : S4x64x4096.Reduces [1] S4x4096 := by decide

/-- The index `(b, i)` with coordinate `f` inserted on the middle axis is `(b, f, i)`. -/
theorem lift_mid (b : Fin 4) (i : Fin 4096) (f : Fin 64) : reduces_mid.lift (ix2 b i) f = ix3 b f i := by
  funext ax; apply Fin.ext
  match ax with
  | ⟨0, _⟩ => rfl
  | ⟨1, _⟩ => rfl
  | ⟨2, _⟩ => rfl

/-- The host's sum over the middle axis at `(b, i)`: the initial value plus the sum over the 64 coordinates. -/
theorem sumMid_apply (X : S4x64x4096.Idx → EReal) (init : EReal) (b : Fin 4) (i : Fin 4096) :
    Ideal.hostReduceAdd reducesTo_S4x64x4096_S4x4096_d1 X init (ix2 b i) = init + ∑ f : Fin 64, X (ix3 b f i) := by
  refine (Ideal.hostReduceAdd_single reducesTo_S4x64x4096_S4x4096_d1 reduces_mid X init (ix2 b i)).trans ?_
  show init + ∑ f : Fin 64, X (reduces_mid.lift (ix2 b i) f) = _
  refine congrArg (init + ·) ?_
  exact Finset.sum_congr rfl fun f _ => congrArg X (lift_mid b i f)

/-- The half-norm of the scaled embedding at `(b, i)` is minus one half of the scaled point's sum of squares. -/
theorem halfNorm_apply (u : FVec Ideal S4x64x4096 .f32) (b : Fin 4) (i : Fin 4096) :
    halfNorm (F := Ideal) (embScaled u) (ix2 b i) = Cert.Gauss.bias u b i := by
  unfold halfNorm Cert.Gauss.bias Cert.Gauss.sqNorm
  refine (mulf_apply (φ := .f32) _ _ (ix2 b i)).trans ?_
  refine congrArg₂ (· * ·) ((broadcastInDim_scalar_apply _ _ (ix2 b i)).trans (constant_apply (φ := .f32) _ ix0)) ?_
  refine (hostReduceAdd_apply (φ := .f32) _ _ _ _ (ix2 b i)).trans ?_
  refine (sumMid_apply _ _ b i).trans ?_
  refine congrArg₂ (· + ·) (constant_apply (φ := .f32) _ _) ?_
  refine Finset.sum_congr rfl fun f _ => ?_
  refine (mulf_apply (φ := .f32) _ _ (ix3 b f i)).trans ?_
  exact congrArg₂ (· * ·)
    ((extf_apply (φ := .bf16) (ψ := .f32) _ bitsLt_bf16_f32 _).trans (embScaled_apply u _))
    ((extf_apply (φ := .bf16) (ψ := .f32) _ bitsLt_bf16_f32 _).trans (embScaled_apply u _))

/-- The column layout of the half-norms reads, at `(b, i, 0)`, the half-norm at `(b, i)`. -/
theorem colOf_apply (h : FVec Ideal S4x4096 .f32) (b : Fin 4) (i : Fin 4096) :
    colOf (F := Ideal) h (ix3 b i (0 : Fin 1)) = h (ix2 b i) := by
  unfold colOf
  refine broadcastInDim_apply _ _ h (ix3 b i (0 : Fin 1)) (ix2 b i) fun a => ?_
  match a with
  | ⟨0, _⟩ => rfl
  | ⟨1, _⟩ => rfl

/-- The row layout of the half-norms reads, at `(b, 0, j)`, the half-norm at `(b, j)`. -/
theorem rowOf_apply (h : FVec Ideal S4x4096 .f32) (b : Fin 4) (j : Fin 4096) :
    rowOf (F := Ideal) h (ix3 b (0 : Fin 1) j) = h (ix2 b j) := by
  unfold rowOf
  refine broadcastInDim_apply _ _ h (ix3 b (0 : Fin 1) j) (ix2 b j) fun a => ?_
  match a with
  | ⟨0, _⟩ => rfl
  | ⟨1, _⟩ => rfl

/-- One entry of the kernel's result, in Spec's terms. -/
theorem kerEntryOf_eq (u : FVec Ideal S4x64x4096 .f32) (b : Fin 4) (i j : Fin 4096) :
    kerEntryOf (embScaled u) (colOf (halfNorm (embScaled u))) (rowOf (halfNorm (embScaled u))) b i j
      = Cert.Gauss.kerEntry u b i j := by
  unfold kerEntryOf Cert.Gauss.kerEntry Cert.Gauss.inner
  refine congrArg Ideal.exp ?_
  refine congrArg (min · (Ideal.ofBits .f32 0x00000000#32)) ?_
  refine congrArg₂ (· + ·) (congrArg₂ (· + ·) ?_ ?_) ?_
  · exact (colOf_apply _ b i).trans (halfNorm_apply u b i)
  · exact (rowOf_apply _ b j).trans (halfNorm_apply u b j)
  · refine congrArg (Ideal.ofBits .f32 0x00000000#32 + ·) ?_
    exact Finset.sum_congr rfl fun f _ => congrArg₂ (· * ·) (embScaled_apply u _) (embScaled_apply u _)

end Cert.KernelIdeal.KValue

end
-- ==== Proof.KValue.lean ====
/-
  The kernel's result array from the frame run: the 64 tiles make up one array.

  At grid point `t` = (b, I, J) the pipeline hands the body columns 1024·I … of the scaled embedding (window 0),
  columns 1024·J … (window 1), rows 1024·I … of the column of half-norms (window 2) and columns 1024·J … of the row of
  half-norms (window 3), all of batch `b`, and writes the body's tile back as tile (I, J) of batch `b` of the result.
  So what point `t` writes back is block `t` of ONE array, `kerOutOf` of the three arrays the kernel is handed; the 64
  blocks cover the result; hence the result ends holding that array.
-/
import proofs.«152303_j32890859553362_2_alg».proof.Proof.KData
import proofs.«152303_j32890859553362_2_alg».proof.Proof.KDefs
import proofs.«152303_j32890859553362_2_alg».proof.Proof.KRead
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KFrame
open scoped BigOperators

variable [Cert.KernelIdeal.Facts]
variable (m : (ℓ : Loc nD τ sig) → Buf (Elt Ideal) ℓ)

/-- The printed index maps, decided over the grid: every input window's block index is a coordinate of the output's. -/
theorem idx_facts : ∀ t : Fin cfg0.N,
    win0_0.index t (0 : Fin 3) = win0_4.index t (0 : Fin 3) ∧ win0_0.index t (1 : Fin 3) = 0 ∧ win0_0.index t (2 : Fin 3) = win0_4.index t (1 : Fin 3)
    ∧ win0_1.index t (0 : Fin 3) = win0_4.index t (0 : Fin 3) ∧ win0_1.index t (1 : Fin 3) = 0 ∧ win0_1.index t (2 : Fin 3) = win0_4.index t (2 : Fin 3)
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 3) = win0_4.index t (0 : Fin 3) ∧ win0_3.index t (1 : Fin 3) = 0 ∧ win0_3.index t (2 : Fin 3) = win0_4.index t (2 : Fin 3)
    ∧ win0_4.index t (0 : Fin 3) ≤ 3 ∧ win0_4.index t (1 : Fin 3) ≤ 3 ∧ win0_4.index t (2 : Fin 3) ≤ 3 :=
  (by decide +kernel : ∀ t : Fin grid0.N, _)

/-- Every tile of the result is some grid point's. -/
theorem idx_onto : ∀ (q0 q1 q2 : Fin 4), ∃ t : Fin cfg0.N, win0_4.index t = ![q0.val, q1.val, q2.val] :=
  (by decide +kernel : ∀ (q0 q1 q2 : Fin 4), ∃ t : Fin grid0.N, win0_4.index t = ![q0.val, q1.val, q2.val])

/-- A block index of the 1 × 1024 × 1024 tile is (0, p, q). -/
theorem tile_idx (j : S1x1024x1024.Idx) : ∃ (p q : Fin 1024), j = ix3 (0 : Fin 1) p q :=
  ⟨j 1, j 2, by
    funext a
    match a with
    | ⟨0, _⟩ => exact Fin.ext (by have h : (j 0).val < 1 := (j 0).isLt; show (j 0).val = 0; omega)
    | ⟨1, _⟩ => rfl
    | ⟨2, _⟩ => rfl⟩

/-- The column of half-norms, read through window 2's block at point `t`, at the row the output entry `E` lies in. -/
theorem read_col (c : Dev nD) (t : Fin cfg0.N) (p : Fin 1024) (E : S4x4096x4096.Idx)
    (hE0 : (E (0 : Fin 3)).val = win0_4.index t (0 : Fin 3) * 1 + 1 * 0)
    (hE1 : (E (1 : Fin 3)).val = win0_4.index t (1 : Fin 3) * 1024 + 1 * p.val) :
    iblk m c 2 t (ix3 (0 : Fin 1) p (0 : Fin 1)) = V m c main_v11 (ix3 (E (0 : Fin 3)) (E (1 : Fin 3)) (0 : Fin 1)) := by
  obtain ⟨e00, e01, e02, e10, e11, e12, e20, e21, e22, e30, e31, e32, l0, l1, l2⟩ := idx_facts t
  show V m c main_v11 (((cfg0.win 2).blk t).view.emb (ix3 (0 : Fin 1) p (0 : Fin 1))) = _
  refine congrArg (V m c main_v11) (funext fun a => Fin.ext ?_)
  match a with
  | ⟨0, _⟩ => show win0_2.index t (0 : Fin 3) * 1 + 1 * 0 = (E (0 : Fin 3)).val; omega
  | ⟨1, _⟩ => show win0_2.index t (1 : Fin 3) * 1024 + 1 * p.val = (E (1 : Fin 3)).val; omega
  | ⟨2, _⟩ => show win0_2.index t (2 : Fin 3) * 1 + 1 * 0 = 0; omega

/-- The row of half-norms, read through window 3's block at point `t`, at the column the output entry `E` lies in. -/
theorem read_row (c : Dev nD) (t : Fin cfg0.N) (q : Fin 1024) (E : S4x4096x4096.Idx)
    (hE0 : (E (0 : Fin 3)).val = win0_4.index t (0 : Fin 3) * 1 + 1 * 0)
    (hE2 : (E (2 : Fin 3)).val = win0_4.index t (2 : Fin 3) * 1024 + 1 * q.val) :
    iblk m c 3 t (ix3 (0 : Fin 1) (0 : Fin 1) q) = V m c main_v12 (ix3 (E (0 : Fin 3)) (0 : Fin 1) (E (2 : Fin 3))) := by
  obtain ⟨e00, e01, e02, e10, e11, e12, e20, e21, e22, e30, e31, e32, l0, l1, l2⟩ := idx_facts t
  show V m c main_v12 (((cfg0.win 3).blk t).view.emb (ix3 (0 : Fin 1) (0 : Fin 1) q)) = _
  refine congrArg (V m c main_v12) (funext fun a => Fin.ext ?_)
  match a with
  | ⟨0, _⟩ => show win0_3.index t (0 : Fin 3) * 1 + 1 * 0 = (E (0 : Fin 3)).val; omega
  | ⟨1, _⟩ => show win0_3.index t (1 : Fin 3) * 1 + 1 * 0 = 0; omega
  | ⟨2, _⟩ => show win0_3.index t (2 : Fin 3) * 1024 + 1 * q.val = (E (2 : Fin 3)).val; omega

/-- The scaled embedding, read through window 0's block at point `t`: coordinate `f` of the row point of `E`. -/
theorem read_lhs (c : Dev nD) (t : Fin cfg0.N) (p : Fin 1024) (f : Fin 64) (E : S4x4096x4096.Idx)
    (hE0 : (E (0 : Fin 3)).val = win0_4.index t (0 : Fin 3) * 1 + 1 * 0)
    (hE1 : (E (1 : Fin 3)).val = win0_4.index t (1 : Fin 3) * 1024 + 1 * p.val) :
    iblk m c 0 t (ix3 (0 : Fin 1) f p) = V m c main_v5 (ix3 (E (0 : Fin 3)) f (E (1 : Fin 3))) := by
  obtain ⟨e00, e01, e02, e10, e11, e12, e20, e21, e22, e30, e31, e32, l0, l1, l2⟩ := idx_facts t
  show V m c main_v5 (((cfg0.win 0).blk t).view.emb (ix3 (0 : Fin 1) f p)) = _
  refine congrArg (V m c main_v5) (funext fun a => Fin.ext ?_)
  match a with
  | ⟨0, _⟩ => show win0_0.index t (0 : Fin 3) * 1 + 1 * 0 = (E (0 : Fin 3)).val; omega
  | ⟨1, _⟩ => show win0_0.index t (1 : Fin 3) * 64 + 1 * f.val = f.val; omega
  | ⟨2, _⟩ => show win0_0.index t (2 : Fin 3) * 1024 + 1 * p.val = (E (1 : Fin 3)).val; omega

/-- The scaled embedding, read through window 1's block at point `t`: coordinate `f` of the column point of `E`. -/
theorem read_rhs (c : Dev nD) (t : Fin cfg0.N) (q : Fin 1024) (f : Fin 64) (E : S4x4096x4096.Idx)
    (hE0 : (E (0 : Fin 3)).val = win0_4.index t (0 : Fin 3) * 1 + 1 * 0)
    (hE2 : (E (2 : Fin 3)).val = win0_4.index t (2 : Fin 3) * 1024 + 1 * q.val) :
    iblk m c 1 t (ix3 (0 : Fin 1) f q) = V m c main_v5 (ix3 (E (0 : Fin 3)) f (E (2 : Fin 3))) := by
  obtain ⟨e00, e01, e02, e10, e11, e12, e20, e21, e22, e30, e31, e32, l0, l1, l2⟩ := idx_facts t
  show V m c main_v5 (((cfg0.win 1).blk t).view.emb (ix3 (0 : Fin 1) f q)) = _
  refine congrArg (V m c main_v5) (funext fun a => Fin.ext ?_)
  match a with
  | ⟨0, _⟩ => show win0_1.index t (0 : Fin 3) * 1 + 1 * 0 = (E (0 : Fin 3)).val; omega
  | ⟨1, _⟩ => show win0_1.index t (1 : Fin 3) * 64 + 1 * f.val = f.val; omega
  | ⟨2, _⟩ => show win0_1.index t (2 : Fin 3) * 1024 + 1 * q.val = (E (2 : Fin 3)).val; omega

/-- WHAT POINT `t` WRITES BACK is block `t` of the one array `kerOutOf` of the three arrays the kernel is handed. -/
theorem flushed_eq (c : Dev nD) (t : Fin cfg0.N) :
    (dats m 0 c).flushed 4 t
      = ((cfg0.win 4).blk t).view.read (Elt Ideal) (kerOutOf (V m c main_v5) (V m c main_v11) (V m c main_v12)) := by
  show (cfg0.win 4).cut (grid0.coords t) ((dats m 0 c).after 4 t) = _
  rw [after4]
  funext j
  obtain ⟨p, q, rfl⟩ := tile_idx j
  show tile (iblk m c 0 t) (iblk m c 1 t) (iblk m c 2 t) (iblk m c 3 t) (ix3 (0 : Fin 1) p q)
    = kerOutOf (V m c main_v5) (V m c main_v11) (V m c main_v12) (((cfg0.win 4).blk t).view.emb (ix3 (0 : Fin 1) p q))
  rw [tile_apply]
  -- the index of the result array this tile entry lands on: batch `b`, points `1024·I + p` and `1024·J + q`
  obtain ⟨E, hE⟩ : ∃ E : S4x4096x4096.Idx, E = ((cfg0.win 4).blk t).view.emb (ix3 (0 : Fin 1) p q) := ⟨_, rfl⟩
  have hE0 : (E (0 : Fin 3)).val = win0_4.index t (0 : Fin 3) * 1 + 1 * 0 := by rw [hE]; rfl
  have hE1 : (E (1 : Fin 3)).val = win0_4.index t (1 : Fin 3) * 1024 + 1 * p.val := by rw [hE]; rfl
  have hE2 : (E (2 : Fin 3)).val = win0_4.index t (2 : Fin 3) * 1024 + 1 * q.val := by rw [hE]; rfl
  rw [← hE, read_col m c t p E hE0 hE1, read_row m c t q E hE0 hE2]
  simp only [fun f => read_lhs m c t p f E hE0 hE1, fun f => read_rhs m c t q f E hE0 hE2]
  rfl

/-- An index of the result array is in point `t`'s tile iff each coordinate is in the tile's range on its axis. -/
theorem mem_blk (t : Fin cfg0.N) (i : S4x4096x4096.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v13).slice (win0_4.rect t)).set ↔ _
  rw [View.set_slice_whole, Rect.mem_set_unit]
  exact Iff.rfl

/-- The 64 tiles cover the result array: entry (b, n, n') lies in the tile of the point (b, n / 1024, n' / 1024). -/
theorem cover (i : S4x4096x4096.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, by omega⟩ ⟨(i 1).val / 1024, by omega⟩ ⟨(i 2).val / 1024, by omega⟩
  have q0 : win0_4.index t (0 : Fin 3) = (i 0).val := congrFun ht 0
  have q1 : win0_4.index t (1 : Fin 3) = (i 1).val / 1024 := congrFun ht 1
  have q2 : win0_4.index t (2 : Fin 3) = (i 2).val / 1024 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-- THE RESULT ARRAY after the run is `kerOutOf` of the three arrays the kernel is handed. -/
theorem final (c : Dev nD) :
    (dats m 0 c).arrAt 4 cfg0.N = kerOutOf (V m c main_v5) (V m c main_v11) (V m c main_v12) :=
  (dats m 0 c).arrAt_eq_of_cover 4 (kerOutOf (V m c main_v5) (V m c main_v11) (V m c main_v12))
    (fun t _ => flushed_eq m c t) cover

end Cert.KernelIdeal.KValue

end
-- ==== Proof.KHostVal.lean ====
/-
  What the kernel finds in the three arrays it is handed: the host operations before it, composed.

  Run in order from any memory, the operations leave in each buffer the composition of the operations that lead to it.
  The buffer both of the kernel's first two windows read ends at the embedding divided by its standard deviation, scaled by
  one eighth and narrowed (`embScaled (coordOf x)`); the column and the row of half-norms end at `colOf` and `rowOf` of
  minus one half of each point's sum of squares of that array.
-/
import proofs.«152303_j32890859553362_2_alg».proof.Proof.KData
import proofs.«152303_j32890859553362_2_alg».proof.Proof.KDefs
import Idealize.ShloMosaic.Lib.StableHlo.Run

noncomputable section

namespace Cert.KernelIdeal.KValue

open Idealize.ShloMosaic Idealize.ShloMosaic.TcCoe Idealize.SL.Sem Idealize.ShloMosaic.StableHlo
open Cert.KernelIdeal Cert.KernelIdeal.KFrame

variable {F : FTy → Type} [FloatOps F] [Cert.KernelIdeal.Facts]

/-- The scaled, narrowed embedding after the host operations, from any memory. -/
theorem after_v5 (W : Valuation τ sig (Elt F)) :
    after (List.flatten [Gen.hostOps0, Gen.hostOps0_1, Gen.hostOps0_2]) W (main_v5 : DevRef τ sig)
      = embScaled (coordOf (W (main_arg1 : DevRef τ sig))) := by
  simp only [Gen.hostOps0, Gen.hostOps0_1, Gen.hostOps0_2, List.flatten_cons, List.flatten_nil, List.append_nil, List.cons_append,
    List.nil_append]
  after_results_simp
  rfl

/-- The column of half-norms after the host operations, from any memory. -/
theorem after_v11 (W : Valuation τ sig (Elt F)) :
    after (List.flatten [Gen.hostOps0, Gen.hostOps0_1, Gen.hostOps0_2]) W (main_v11 : DevRef τ sig)
      = colOf (halfNorm (embScaled (coordOf (W (main_arg1 : DevRef τ sig))))) := by
  simp only [Gen.hostOps0, Gen.hostOps0_1, Gen.hostOps0_2, List.flatten_cons, List.flatten_nil, List.append_nil, List.cons_append,
    List.nil_append]
  after_results_simp
  rfl

/-- The row of half-norms after the host operations, from any memory. -/
theorem after_v12 (W : Valuation τ sig (Elt F)) :
    after (List.flatten [Gen.hostOps0, Gen.hostOps0_1, Gen.hostOps0_2]) W (main_v12 : DevRef τ sig)
      = rowOf (halfNorm (embScaled (coordOf (W (main_arg1 : DevRef τ sig))))) := by
  simp only [Gen.hostOps0, Gen.hostOps0_1, Gen.hostOps0_2, List.flatten_cons, List.flatten_nil, List.append_nil, List.cons_append,
    List.nil_append]
  after_results_simp
  rfl

variable (m : (ℓ : Loc nD τ sig) → Buf (Elt F) ℓ)

/-- The three arrays as the kernel finds them on core `c`. -/
theorem V_v5 (c : Dev nD) : V m c main_v5 = embScaled (coordOf (m ((c : Thread nD τ).loc main_arg1))) := after_v5 _
theorem V_v11 (c : Dev nD) : V m c main_v11 = colOf (halfNorm (embScaled (coordOf (m ((c : Thread nD τ).loc main_arg1))))) := after_v11 _
theorem V_v12 (c : Dev nD) : V m c main_v12 = rowOf (halfNorm (embScaled (coordOf (m ((c : Thread nD τ).loc main_arg1))))) := after_v12 _

end Cert.KernelIdeal.KValue

end
-- ==== Proof.Algebra.lean ====
/-
  The algebra over the extended reals that compares the two arrangements of the Gaussian adjacency entry.

  First the five float words are evaluated to the real numbers they denote.  Then, for real coordinates, each
  arrangement is brought to the exponential of one real number: sums of products of reals stay real, so every
  coercion can be pushed to the outside, the divisions by 64 and by 2 become products with 1/64 and 1/2, and the
  cap at zero becomes a real minimum or maximum.  What remains is an identity of real numbers: with
  A = |p_i|², B = |p_j|², C = p_i·p_j and t = (A + B - 2C)/64, scaling each coordinate by 1/8 scales every product
  of two coordinates by 1/64, so the kernel's exponent is min (-t/2) 0 and the reference's is -(max t 0)/2; these
  agree by cases on the sign of t.

  The last part holds the facts about quotients by a positive extended real that the standard deviation needs.
-/
import proofs.«152303_j32890859553362_2_alg».proof.Proof.Spec

noncomputable section

namespace Cert.Gauss

open Idealize.ShloMosaic Idealize.ShloMosaic.ValueIdx
open scoped BigOperators

/-! ### The float words -/

theorem w0_eq : w0 = 0 := by
  simp [w0, Ideal.ofBits, Ideal.ieee]

theorem wEighth_eq : wEighth = ((1 / 8 : ℝ) : EReal) := by
  simp [wEighth, Ideal.ofBits, Ideal.ieee, -EReal.coe_mul]; norm_num

theorem wNegHalf_eq : wNegHalf = ((-(1 / 2) : ℝ) : EReal) := by
  simp [wNegHalf, Ideal.ofBits, Ideal.ieee, -EReal.coe_mul]; norm_num

theorem wTwo_eq : wTwo = ((2 : ℝ) : EReal) := by
  simp [wTwo, Ideal.ofBits, Ideal.ieee, -EReal.coe_mul]; norm_num

theorem w64_eq : w64 = ((64 : ℝ) : EReal) := by
  simp [w64, Ideal.ofBits, Ideal.ieee, -EReal.coe_mul]; norm_num

theorem w2p20_eq : Ideal.ofBits .f32 0x49800000#32 = ((1048576 : ℝ) : EReal) := by
  simp [Ideal.ofBits, Ideal.ieee, -EReal.coe_mul]; norm_num

/-! ### Real coordinates: each arrangement as the exponential of one real number -/

/-- A finite sum of real numbers, read in the extended reals, is the sum of the terms read there. -/
theorem coe_sum_real {ι : Type*} (s : Finset ι) (g : ι → ℝ) :
    ((∑ f ∈ s, g f : ℝ) : EReal) = ∑ f ∈ s, (g f : EReal) := by
  classical
  induction s using Finset.induction_on with
  | empty => simp
  | insert a s ha ih => rw [Finset.sum_insert ha, Finset.sum_insert ha, EReal.coe_add, ih]

/-- The minimum of two reals, read in the extended reals, is the minimum there: the reading is monotone. -/
theorem coe_min_real (x y : ℝ) : ((min x y : ℝ) : EReal) = min (x : EReal) (y : EReal) :=
  EReal.coe_strictMono.monotone.map_min

/-- The maximum of two reals, read in the extended reals, is the maximum there. -/
theorem coe_max_real (x y : ℝ) : ((max x y : ℝ) : EReal) = max (x : EReal) (y : EReal) :=
  EReal.coe_strictMono.monotone.map_max

/-- The squared length of a point with real coordinates is the real squared length. -/
theorem sqNorm_coe (r : SE.Idx → ℝ) (b : Fin 4) (i : Fin 4096) :
    sqNorm (fun k => (r k : EReal)) b i = ((∑ f : Fin 64, r (ix3 b f i) * r (ix3 b f i) : ℝ) : EReal) := by
  unfold sqNorm
  rw [w0_eq, zero_add, coe_sum_real]
  exact Finset.sum_congr rfl fun f _ => (EReal.coe_mul _ _).symm

/-- The product of two points with real coordinates is the real product. -/
theorem inner_coe (r : SE.Idx → ℝ) (b : Fin 4) (i j : Fin 4096) :
    inner (fun k => (r k : EReal)) b i j = ((∑ f : Fin 64, r (ix3 b f i) * r (ix3 b f j) : ℝ) : EReal) := by
  unfold inner
  rw [w0_eq, zero_add, coe_sum_real]
  exact Finset.sum_congr rfl fun f _ => (EReal.coe_mul _ _).symm

/-- Scaling real coordinates by the word for one eighth gives the real coordinates times 1/8. -/
theorem scaled_coe (r : SE.Idx → ℝ) :
    scaled (fun k => (r k : EReal)) = fun k => ((r k * (1 / 8) : ℝ) : EReal) := by
  funext k
  unfold scaled
  rw [wEighth_eq, ← EReal.coe_mul]

/-- The kernel's arrangement at real coordinates. -/
theorem kerEntry_coe (r : SE.Idx → ℝ) (b : Fin 4) (i j : Fin 4096) :
    kerEntry (fun k => (r k : EReal)) b i j
      = ((Real.exp (min
          ((-(1 / 2) * (∑ f : Fin 64, (r (ix3 b f i) * (1 / 8)) * (r (ix3 b f i) * (1 / 8)))
            + -(1 / 2) * (∑ f : Fin 64, (r (ix3 b f j) * (1 / 8)) * (r (ix3 b f j) * (1 / 8))))
            + ∑ f : Fin 64, (r (ix3 b f i) * (1 / 8)) * (r (ix3 b f j) * (1 / 8))) 0) : ℝ) : EReal) := by
  unfold kerEntry bias
  rw [scaled_coe, sqNorm_coe, sqNorm_coe, inner_coe, wNegHalf_eq, w0_eq, ← EReal.coe_mul, ← EReal.coe_mul,
    ← EReal.coe_add, ← EReal.coe_add, ← EReal.coe_zero, ← coe_min_real, Ideal.exp_coe]

/-- The reference's arrangement at real coordinates. -/
theorem refEntry_coe (r : SE.Idx → ℝ) (b : Fin 4) (i j : Fin 4096) :
    refEntry (fun k => (r k : EReal)) b i j
      = ((Real.exp (-(max
          ((((∑ f : Fin 64, r (ix3 b f i) * r (ix3 b f i)) + (∑ f : Fin 64, r (ix3 b f j) * r (ix3 b f j)))
            - 2 * (∑ f : Fin 64, r (ix3 b f i) * r (ix3 b f j))) * (1 / 64)) 0) * (1 / 2)) : ℝ) : EReal) := by
  unfold refEntry
  rw [sqNorm_coe, sqNorm_coe, inner_coe, wTwo_eq, w64_eq, w0_eq,
    Ideal.div_coe (by norm_num : (64 : ℝ) ≠ 0), Ideal.div_coe (by norm_num : (2 : ℝ) ≠ 0),
    ← EReal.coe_add, ← EReal.coe_mul, ← EReal.coe_sub, ← EReal.coe_mul, ← EReal.coe_zero, ← coe_max_real,
    ← EReal.coe_neg, ← EReal.coe_mul, Ideal.exp_coe]

/-- The identity of real numbers behind the comparison: scaling by 1/8 scales each product by 1/64, and
    capping `-t/2` above at zero is the same as halving and negating `t` capped below at zero. -/
theorem exponent_eq (a c : Fin 64 → ℝ) :
    min ((-(1 / 2) * (∑ f : Fin 64, (a f * (1 / 8)) * (a f * (1 / 8)))
          + -(1 / 2) * (∑ f : Fin 64, (c f * (1 / 8)) * (c f * (1 / 8))))
          + ∑ f : Fin 64, (a f * (1 / 8)) * (c f * (1 / 8))) 0
      = -(max ((((∑ f : Fin 64, a f * a f) + (∑ f : Fin 64, c f * c f))
            - 2 * (∑ f : Fin 64, a f * c f)) * (1 / 64)) 0) * (1 / 2) := by
  have hs : ∀ x y : Fin 64 → ℝ,
      (∑ f : Fin 64, (x f * (1 / 8)) * (y f * (1 / 8))) = (1 / 64) * ∑ f : Fin 64, x f * y f := by
    intro x y
    rw [Finset.mul_sum]
    exact Finset.sum_congr rfl fun f _ => by ring
  rw [hs a a, hs c c, hs a c]
  generalize (∑ f : Fin 64, a f * a f) = A
  generalize (∑ f : Fin 64, c f * c f) = B
  generalize (∑ f : Fin 64, a f * c f) = C
  rcases le_total (((A + B) - 2 * C) * (1 / 64)) 0 with h | h
  · rw [max_eq_right h, min_eq_right (by linarith)]; ring
  · rw [max_eq_left h, min_eq_left (by linarith)]; ring

/-- The two arrangements of the entry agree when every coordinate is a real number. -/
theorem entry_eq (u : SE.Idx → EReal) (hu : ∀ k, ∃ r : ℝ, u k = (r : EReal)) (b : Fin 4) (i j : Fin 4096) :
    kerEntry u b i j = refEntry u b i j := by
  choose r hr using hu
  obtain rfl : u = fun k => (r k : EReal) := funext hr
  rw [kerEntry_coe, refEntry_coe, exponent_eq]

/-! ### Quotients by a positive extended real -/

/-- A quotient by a positive extended real is multiplication by one fixed real (the divisor may be ⊤, whose inverse is 0). -/
theorem div_pos_real (s : EReal) (hs : 0 < s) :
    ∃ r : ℝ, ∀ x : ℝ, Ideal.div (x : EReal) s = ((x * r : ℝ) : EReal) := by
  induction s using EReal.rec with
  | bot => exact absurd hs (not_lt.mpr bot_le)
  | top =>
    refine ⟨0, fun x => ?_⟩
    rw [Ideal.div, if_neg EReal.top_ne_zero, EReal.inv_top, mul_zero, mul_zero, EReal.coe_zero]
  | coe t =>
    have ht : t ≠ 0 := by
      have : (0 : ℝ) < t := by exact_mod_cast hs
      exact this.ne'
    refine ⟨1 / t, fun x => ?_⟩
    rw [Ideal.div_coe ht, ← EReal.coe_mul]

/-- The square root of a positive quantity divided by 1048575 is positive (the quantity may be ⊤). -/
theorem sqrt_div_pos (S : EReal) (hS : 0 < S) : 0 < Ideal.sqrt (Ideal.div S ((1048575 : ℝ) : EReal)) := by
  rw [Ideal.div_coe (by norm_num : (1048575 : ℝ) ≠ 0)]
  induction S using EReal.rec with
  | bot => exact absurd hS (not_lt.mpr bot_le)
  | top =>
    rw [EReal.top_mul_coe_of_pos (by norm_num : (0 : ℝ) < 1 / 1048575), Ideal.sqrt_top]
    exact EReal.zero_lt_top
  | coe t =>
    have ht : (0 : ℝ) < t := by exact_mod_cast hS
    have hq : (0 : ℝ) < t * (1 / 1048575) := by positivity
    rw [← EReal.coe_mul, Ideal.sqrt_coe, if_neg (not_lt.mpr hq.le)]
    exact_mod_cast Real.sqrt_pos.mpr hq

/-- 2^20 less the integer one, as extended reals. -/
theorem count_less_one : ((1048576 : ℝ) : EReal) - ((1 : ℝ) : EReal) = ((1048575 : ℝ) : EReal) := by
  rw [← EReal.coe_sub]; norm_num

end Cert.Gauss

end
-- ==== Proof.PreDomain.lean ====
/-
  What the precondition says of the two arguments, at exact arithmetic.

  The precondition is the conjunction of three tests: every entry of the adjacency argument has absolute value
  below +∞, every entry of the embedding has, and the sum of the squared deviations of the embedding's entries
  from their mean is above zero.  In the extended reals |v| < ⊤ rules out both infinities, so the second test
  says every entry of the embedding is a real number; the third is the positivity of the quantity the variance
  divides.  The number of entries less one is 2^20 - 1 = 1048575, a positive real, so the variance's guard
  passes, the variance is the positive sum over 1048575, its square root is positive, and a real entry divided
  by a positive extended real is real (division by ⊤ gives zero).
-/
import proofs.«152303_j32890859553362_2_alg».proof.Pre_finite_inputs
import proofs.«152303_j32890859553362_2_alg».proof.Proof.Gen.Pre_finite_inputs
import proofs.«152303_j32890859553362_2_alg».proof.Proof.Gen.KernelIdeal
import proofs.«152303_j32890859553362_2_alg».proof.Proof.KDefs
import proofs.«152303_j32890859553362_2_alg».proof.Proof.Algebra
import Idealize.ShloMosaic.Lib.ReduceAll
import Idealize.ShloMosaic.Lib.ValueIdx
import Idealize.ShloMosaic.PureOps.Ideal.Laws

noncomputable section

namespace Cert.PreDomain

open Idealize.ShloMosaic Idealize.ShloMosaic.ValueIdx Cert.KernelIdeal Cert.KernelIdeal.KValue

variable [Cert.Pre_finite_inputs.Facts] [Cert.KernelIdeal.Facts]

/-! ### Words and bits -/

/-- A decided proposition whose bit is one holds. -/
theorem of_ofBool_decide {p : Prop} [Decidable p] (h : BitVec.ofBool (decide p) = 1#1) : p := by
  by_contra hp
  rw [decide_eq_false hp] at h
  exact absurd h (by decide)

/-- The word of +∞. -/
theorem wInf_eq : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => rw [EReal.neg_bot, max_eq_right bot_le] at h; exact absurd h (lt_irrefl _)
  | top => rw [max_eq_left le_top] at h; exact absurd h (lt_irrefl _)
  | coe r => exact ⟨r, rfl⟩

/-- The scalar shape has one index. -/
local instance : Subsingleton Cert.Pre_finite_inputs.S_.Idx := ⟨fun a b => funext fun d => d.elim0⟩

/-! ### The precondition's conjuncts -/

/-- Under the precondition every entry of the embedding is a real number. -/
theorem emb_real (a : FVec Ideal S4x4096x4096 .f32) (x : FVec Ideal S4x64x4096 .f32)
    (h : Cert.Pre_finite_inputs.fn (F := Ideal) a x = fun _ => 1#1) : ∀ k, ∃ r : ℝ, x k = (r : EReal) := by
  intro k
  have h0 := congrFun h ix0
  dsimp only [Cert.Pre_finite_inputs.fn, Cert.Pre_finite_inputs.fn_part1] at h0
  obtain ⟨h12, -⟩ := IntOp.andi_eq_one.1 h0
  obtain ⟨-, h2⟩ := IntOp.andi_eq_one.1 h12
  have hk := Host.reduce_andi_all _ _ _ _ ix0 h2 k
  have hlt : max (x k) (-(x k)) < Ideal.ofBits .f32 0x7F800000#32 := of_ofBool_decide hk
  rw [wInf_eq] at hlt
  exact real_of_abs_lt_top _ hlt

/-- Under the precondition the sum of squared deviations is positive. -/
theorem sumSq_pos (a : FVec Ideal S4x4096x4096 .f32) (x : FVec Ideal S4x64x4096 .f32)
    (h : Cert.Pre_finite_inputs.fn (F := Ideal) a x = fun _ => 1#1) : 0 < sumSqDev (F := Ideal) x ix0 := by
  have h0 := congrFun h ix0
  dsimp only [Cert.Pre_finite_inputs.fn, Cert.Pre_finite_inputs.fn_part1] at h0
  obtain ⟨-, h3⟩ := IntOp.andi_eq_one.1 h0
  have hlt : Ideal.ofBits .f32 0x00000000#32 < sumSqDev (F := Ideal) x ix0 := of_ofBool_decide h3
  rwa [Ideal.ofBits_zero_f32] at hlt

/-! ### The standard deviation -/

/-- The number of entries less one is 1048575. -/
theorem countLessOne_eq : countLessOne (F := Ideal) ix0 = ((1048575 : ℝ) : EReal) := by
  show Ideal.ofBits .f32 0x49800000#32 - ((((1#32 : BitVec 32).toInt : ℤ) : ℝ) : EReal) = _
  rw [Cert.Gauss.w2p20_eq, show (1#32 : BitVec 32).toInt = 1 by decide, Int.cast_one]
  exact Cert.Gauss.count_less_one

/-- A positive sum of squared deviations gives a positive standard deviation. -/
theorem std_pos (x : FVec Ideal S4x64x4096 .f32) (hS : 0 < sumSqDev (F := Ideal) x ix0) :
    0 < stdOf (F := Ideal) x ix0 := by
  have hc : Ideal.cmp .ogt ((1048575 : ℝ) : EReal) (Ideal.ofBits .f32 0x00000000#32) = 1#1 := by
    rw [Ideal.ofBits_zero_f32]
    show BitVec.ofBool (decide ((0 : EReal) < ((1048575 : ℝ) : EReal))) = 1#1
    rw [decide_eq_true (by exact_mod_cast (by norm_num : (0 : ℝ) < 1048575))]
    rfl
  show 0 < Ideal.sqrt (Scalar.select (Ideal.cmp .ogt (countLessOne (F := Ideal) ix0) (Ideal.ofBits .f32 0x00000000#32))
    (Ideal.div (sumSqDev (F := Ideal) x ix0) (countLessOne (F := Ideal) ix0)) (Ideal.ofBits .f32 0x7FC00000#32))
  rw [countLessOne_eq, hc, select_one]
  exact Cert.Gauss.sqrt_div_pos _ hS

/-- Real entries divided by a positive standard deviation are real. -/
theorem coord_real (x : FVec Ideal S4x64x4096 .f32) (hx : ∀ k, ∃ r : ℝ, x k = (r : EReal))
    (hS : 0 < sumSqDev (F := Ideal) x ix0) : ∀ k, ∃ r : ℝ, coordOf (F := Ideal) x k = (r : EReal) := by
  intro k
  obtain ⟨r, hr⟩ := hx k
  obtain ⟨q, hq⟩ := Cert.Gauss.div_pos_real _ (std_pos x hS)
  have e : coordOf (F := Ideal) x k = Ideal.div (x k) (stdOf (F := Ideal) x ix0) :=
    congrArg (fun j => Ideal.div (x k) (stdOf (F := Ideal) x j)) (eq_ix0 _)
  exact ⟨r * q, by rw [e, hr, hq]⟩

end Cert.PreDomain

end
-- ==== Proof.RefRead.lean ====
/-
  The reference's result read one entry at a time.

  The program builds its result from whole-array operations: an entrywise square, a sum over the coordinate axis, two
  spreads of the per-point sums over the rows and down the columns of the result, a batched product of the embedding
  with itself, and entrywise arithmetic ending in an exponential. Read at one index each of these is an expression in
  finitely many entries of its operands: an entrywise operation is the scalar operation on the operands' entries at that
  index, a spread constant is the constant, a spread per-point quantity is that quantity at the row's (or the column's)
  point, the sum over the coordinate axis is the initial value plus the sum over the 64 coordinates, and the batched
  product is the sum over the 64 coordinates of the products. Put together, entry (b, i, j) of the result is
  `exp (-(max ((|p_i|² + |p_j|² - 2 p_i·p_j) / 64) 0) / 2)` for the columns `p` of batch element `b`.
-/
import proofs.«152303_j32890859553362_2_alg».proof.Proof.RefDefs
import proofs.«152303_j32890859553362_2_alg».proof.Proof.Spec
import proofs.«152303_j32890859553362_2_alg».proof.Proof.Gen.ReferenceIdeal
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Facts₀ Cert.ReferenceIdeal.Facts
open scoped BigOperators

variable [Cert.ReferenceIdeal.Facts]

/-! ## A scalar constant spread over the whole result -/

/-- A word spread from the rank-zero array to every entry of the result reads that word's value everywhere. -/
theorem bcastConst_apply (w : BitVec 32) (k : S4x4096x4096.Idx) :
    broadcastInDim S4x4096x4096 ![] bcast_S_S4x4096x4096 (constant (F := Ideal) S_ .f32 w) k = Ideal.ofBits .f32 w := rfl

/-! ## The two keep-dimension spreads of a per-point quantity

A quantity `x` indexed by (batch, point) is first given a unit axis and then spread along it. With the unit axis last,
entry (b, i, j) is `x` at (b, i): constant along the rows. With the unit axis in the middle, it is `x` at (b, j):
constant down the columns. -/

/-- Spread along the last axis: entry (b, i, j) is the operand at (b, i). -/
theorem bcastRow_apply (x : FVec Ideal S4x4096 .f32) (b : Fin 4) (i j : Fin 4096) :
    broadcastInDim S4x4096x4096 ![0, 1, 2] bcast_S4x4096x1_S4x4096x4096_0_1_2
      (broadcastInDim S4x4096x1 ![0, 1] bcast_S4x4096_S4x4096x1_0_1 x) (ix3 b i j) = x (ix2 b i) := by
  rw [broadcastInDim_apply _ _ _ (ix3 b i j) (ix3 b i (0 : Fin 1)) (fun a => by
        match a with
        | ⟨0, _⟩ => rfl
        | ⟨1, _⟩ => rfl
        | ⟨2, _⟩ => rfl)]
  exact broadcastInDim_apply _ _ x (ix3 b i (0 : Fin 1)) (ix2 b i) (fun a => by
        match a with
        | ⟨0, _⟩ => rfl
        | ⟨1, _⟩ => rfl)

/-- Spread along the middle axis: entry (b, i, j) is the operand at (b, j). -/
theorem bcastCol_apply (x : FVec Ideal S4x4096 .f32) (b : Fin 4) (i j : Fin 4096) :
    broadcastInDim S4x4096x4096 ![0, 1, 2] bcast_S4x1x4096_S4x4096x4096_0_1_2
      (broadcastInDim S4x1x4096 ![0, 2] bcast_S4x4096_S4x1x4096_0_2 x) (ix3 b i j) = x (ix2 b j) := by
  rw [broadcastInDim_apply _ _ _ (ix3 b i j) (ix3 b (0 : Fin 1) j) (fun a => by
        match a with
        | ⟨0, _⟩ => rfl
        | ⟨1, _⟩ => rfl
        | ⟨2, _⟩ => rfl)]
  exact broadcastInDim_apply _ _ x (ix3 b (0 : Fin 1) j) (ix2 b j) (fun a => by
        match a with
        | ⟨0, _⟩ => rfl
        | ⟨1, _⟩ => rfl)

/-! ## The sum over the coordinate axis -/

/-- The shape relation of the sum over axis 1 in the form that names the re-inserted coordinate. -/
theorem reduces_d1 : S4x64x4096.Reduces [1] S4x4096 := by decide

/-- Putting coordinate `f` back on axis 1 of the reduced index (b, i) gives (b, f, i). -/
theorem lift_d1 (b : Fin 4) (i : Fin 4096) (f : Fin 64) :
    reduces_d1.lift (ix2 b i) f = ix3 b f i := by
  funext a; apply Fin.ext
  match a with
  | ⟨0, _⟩ => rfl
  | ⟨1, _⟩ => rfl
  | ⟨2, _⟩ => rfl

/-- Each point's sum of squares, read at (b, i). -/
theorem sqOf_apply (u : FVec Ideal S4x64x4096 .f32) (b : Fin 4) (i : Fin 4096) :
    sqOf (F := Ideal) u (ix2 b i) = Cert.Gauss.sqNorm u b i := by
  unfold sqOf Cert.Gauss.sqNorm
  rw [hostReduceAdd_apply, Ideal.hostReduceAdd_single _ reduces_d1]
  show Ideal.ofBits .f32 0x00000000#32 + ∑ f : Fin 64, mulf u u (reduces_d1.lift (ix2 b i) f) = _
  refine congrArg _ (Finset.sum_congr rfl fun f _ => ?_)
  rw [lift_d1, mulf_apply]

/-! ## The batched product

Batch axis 0 of both operands, axis 1 of both contracted, the two point axes kept: entry (b, i, j) is the sum over the
64 coordinates `f` of the left operand at (b, f, i) times the right operand at (b, f, j). The contraction's index
set has one axis of extent 64 and is re-indexed by `Fin 64`. -/

/-- The batched product of the embedding with itself, read at (b, i, j). -/
theorem dot_apply (u : FVec Ideal S4x64x4096 .f32) (b : Fin 4) (i j : Fin 4096) :
    Host.dotGeneral (F := Ideal) dot_S4x64x4096_S4x64x4096_S4x4096x4096_1_1_2_2_0_0 none u u (ix3 b i j)
      = ∑ f : Fin 64, u (ix3 b f i) * u (ix3 b f j) := by
  show FloatOps.dotGeneral _ none _ u u (ix3 b i j) = _
  rw [Ideal.dotGeneral_apply,
    ← Equiv.sum_comp (contrEquiv1 dot_S4x64x4096_S4x64x4096_S4x4096x4096_1_1_2_2_0_0 64 rfl rfl).symm]
  refine Finset.sum_congr rfl fun f _ => ?_
  have c3 := contrEquiv1_symm_val dot_S4x64x4096_S4x64x4096_S4x4096x4096_1_1_2_2_0_0 64 rfl rfl f
  have l3 : (dot_S4x64x4096_S4x64x4096_S4x4096x4096_1_1_2_2_0_0).lhsIdx (ix3 b i j)
      ((contrEquiv1 _ 64 rfl rfl).symm f) = ix3 b f i := by
    funext ax; apply Fin.ext
    match ax with
    | ⟨0, _⟩ => simp [DotDims.lhsIdx, dot_S4x64x4096_S4x64x4096_S4x4096x4096_1_1_2_2_0_0]; rfl
    | ⟨1, _⟩ => simp [DotDims.lhsIdx, dot_S4x64x4096_S4x64x4096_S4x4096x4096_1_1_2_2_0_0]; exact c3
    | ⟨2, _⟩ => simp [DotDims.lhsIdx, dot_S4x64x4096_S4x64x4096_S4x4096x4096_1_1_2_2_0_0]; rfl
  have r3 : (dot_S4x64x4096_S4x64x4096_S4x4096x4096_1_1_2_2_0_0).rhsIdx (ix3 b i j)
      ((contrEquiv1 _ 64 rfl rfl).symm f) = ix3 b f j := by
    funext ax; apply Fin.ext
    match ax with
    | ⟨0, _⟩ => simp [DotDims.rhsIdx, dot_S4x64x4096_S4x64x4096_S4x4096x4096_1_1_2_2_0_0]; rfl
    | ⟨1, _⟩ => simp [DotDims.rhsIdx, dot_S4x64x4096_S4x64x4096_S4x4096x4096_1_1_2_2_0_0]; exact c3
    | ⟨2, _⟩ => simp [DotDims.rhsIdx, dot_S4x64x4096_S4x64x4096_S4x4096x4096_1_1_2_2_0_0]; rfl
  rw [l3, r3]

/-- The product read at (b, i, j) is the sum of the products of the two points' coordinates; the zero the sum
    starts from adds nothing. -/
theorem dot_apply_inner (u : FVec Ideal S4x64x4096 .f32) (b : Fin 4) (i j : Fin 4096) :
    Host.dotGeneral (F := Ideal) dot_S4x64x4096_S4x64x4096_S4x4096x4096_1_1_2_2_0_0 none u u (ix3 b i j)
      = Cert.Gauss.inner u b i j := by
  rw [dot_apply]
  show _ = Ideal.ofBits .f32 0x00000000#32 + ∑ f : Fin 64, u (ix3 b f i) * u (ix3 b f j)
  rw [Ideal.ofBits_zero_f32, zero_add]

/-! ## The result -/

/-- The result read at (b, i, j). -/
theorem outOf_apply (u : FVec Ideal S4x64x4096 .f32) (b : Fin 4) (i j : Fin 4096) :
    outOf (F := Ideal) u (ix3 b i j) = Cert.Gauss.refEntry u b i j := by
  unfold outOf Cert.Gauss.refEntry
  show Ideal.exp (Ideal.div (-(max (Ideal.div
      ((broadcastInDim S4x4096x4096 ![0, 1, 2] bcast_S4x4096x1_S4x4096x4096_0_1_2
          (broadcastInDim S4x4096x1 ![0, 1] bcast_S4x4096_S4x4096x1_0_1 (sqOf u)) (ix3 b i j)
        + broadcastInDim S4x4096x4096 ![0, 1, 2] bcast_S4x1x4096_S4x4096x4096_0_1_2
          (broadcastInDim S4x1x4096 ![0, 2] bcast_S4x4096_S4x1x4096_0_2 (sqOf u)) (ix3 b i j))
        - broadcastInDim S4x4096x4096 ![] bcast_S_S4x4096x4096 (constant (F := Ideal) S_ .f32 0x40000000#32) (ix3 b i j)
          * Host.dotGeneral (F := Ideal) dot_S4x64x4096_S4x64x4096_S4x4096x4096_1_1_2_2_0_0 none u u (ix3 b i j))
      (broadcastInDim S4x4096x4096 ![] bcast_S_S4x4096x4096 (constant (F := Ideal) S_ .f32 0x42800000#32) (ix3 b i j)))
      (broadcastInDim S4x4096x4096 ![] bcast_S_S4x4096x4096 (constant (F := Ideal) S_ .f32 0x00000000#32) (ix3 b i j))))
      (broadcastInDim S4x4096x4096 ![] bcast_S_S4x4096x4096 (constant (F := Ideal) S_ .f32 0x40000000#32) (ix3 b i j))) = _
  rw [bcastRow_apply, bcastCol_apply, bcastConst_apply, bcastConst_apply, bcastConst_apply, dot_apply_inner,
    sqOf_apply, sqOf_apply]

end Cert.ReferenceIdeal.RefValue

end
-- ==== Proof.Bridge.lean ====
/-
  The kernel program and the reference compute one function of the embedding.

  The kernel program's run leaves in its result buffer the array its 64 tiles make up (`KValue.final`), a function of the
  three arrays the host operations before it computed (`KValue.V_v5`, `V_v11`, `V_v12`): `kerOut x` of the embedding `x`.
  Entry (b, i, j) of that array is `Gauss.kerEntry u b i j` with `u` the embedding divided by its standard deviation
  (`kerEntryOf_eq`); entry (b, i, j) of the reference's result is `Gauss.refEntry u b i j` of the same `u` (`outOf_apply`).
  Where the precondition holds the embedding's entries are real numbers and the sum of their squared deviations from the
  mean is positive, so the standard deviation is positive and every entry of `u` is a real number (`PreDomain`); and for
  real `u` the two arrangements agree (`Gauss.entry_eq`): both are `exp (min (-(|p_i|² + |p_j|² - 2 p_i·p_j) / 128) 0)`.
-/
import proofs.«152303_j32890859553362_2_alg».proof.Proof.KValue
import proofs.«152303_j32890859553362_2_alg».proof.Proof.KHostVal
import proofs.«152303_j32890859553362_2_alg».proof.Proof.KFrame
import proofs.«152303_j32890859553362_2_alg».proof.Proof.PreDomain
import proofs.«152303_j32890859553362_2_alg».proof.Proof.RefRun
import proofs.«152303_j32890859553362_2_alg».proof.Proof.RefRead
import proofs.«152303_j32890859553362_2_alg».proof.Proof.Algebra

noncomputable section

namespace Cert.Bridge

open Idealize.ShloMosaic Idealize.ShloMosaic.TcCoe Idealize.ShloMosaic.ValueIdx Idealize.SL.Sem

/-- The kernel program's run at exact arithmetic with its result named: every weakly fair execution ends, without a
    fault, with the result buffer at `kerOut` of the embedding argument and both arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v13)
          = Cert.KernelIdeal.KValue.kerOut (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) :=
  (θ_run (Cert.KernelIdeal.defs (F := Ideal)) _ _).mono (fun r h c =>
    ⟨((h c).1 4).trans ((Cert.KernelIdeal.KValue.final m c).trans (by
        rw [Cert.KernelIdeal.KValue.V_v5, Cert.KernelIdeal.KValue.V_v11, Cert.KernelIdeal.KValue.V_v12]; rfl)),
      ((h c).2 Cert.KernelIdeal.main_arg0 Cert.KernelIdeal.KFrame.main_arg0_rest).trans (Cert.KernelIdeal.KFrame.V_main_arg0 m c),
      ((h c).2 Cert.KernelIdeal.main_arg1 Cert.KernelIdeal.KFrame.main_arg1_rest).trans (Cert.KernelIdeal.KFrame.V_main_arg1 m c)⟩)
    (Cert.KernelIdeal.KFrame.run_main m ρ)

/-- The two programs divide the embedding by the same standard deviation: the same operations in the same order. -/
theorem coord_same (x : FVec Ideal Cert.KernelIdeal.S4x64x4096 .f32) :
    Cert.ReferenceIdeal.RefValue.coordOf (F := Ideal) x = Cert.KernelIdeal.KValue.coordOf (F := Ideal) x := rfl

/-- Where the precondition holds, the kernel program's result and the reference's are the same array. -/
theorem result_eq (a : FVec Ideal Cert.KernelIdeal.S4x4096x4096 .f32) (x : FVec Ideal Cert.KernelIdeal.S4x64x4096 .f32)
    (h : Cert.Pre_finite_inputs.fn (F := Ideal) a x = fun _ => 1#1) :
    Cert.ReferenceIdeal.RefValue.refOut (F := Ideal) x = Cert.KernelIdeal.KValue.kerOut x := by
  have hx := Cert.PreDomain.emb_real a x h
  have hS := Cert.PreDomain.sumSq_pos a x h
  have hu := Cert.PreDomain.coord_real x hx hS
  funext k
  obtain ⟨b, i, j, rfl⟩ : ∃ (b : Fin 4) (i j : Fin 4096), k = ix3 b i j := ⟨k 0, k 1, k 2, eq_ix3 k⟩
  show Cert.ReferenceIdeal.RefValue.outOf (F := Ideal) (Cert.ReferenceIdeal.RefValue.coordOf (F := Ideal) x) (ix3 b i j)
    = Cert.KernelIdeal.KValue.kerEntryOf (Cert.KernelIdeal.KValue.embScaled (Cert.KernelIdeal.KValue.coordOf x))
        (Cert.KernelIdeal.KValue.colOf (Cert.KernelIdeal.KValue.halfNorm (Cert.KernelIdeal.KValue.embScaled (Cert.KernelIdeal.KValue.coordOf x))))
        (Cert.KernelIdeal.KValue.rowOf (Cert.KernelIdeal.KValue.halfNorm (Cert.KernelIdeal.KValue.embScaled (Cert.KernelIdeal.KValue.coordOf x)))) b i j
  rw [Cert.ReferenceIdeal.RefValue.outOf_apply, coord_same, Cert.KernelIdeal.KValue.kerEntryOf_eq]
  exact (Cert.Gauss.entry_eq _ hu b i j).symm

end Cert.Bridge

end
-- ==== Proof.lean ====
/-
  A tiled Gaussian-adjacency kernel against its plain reference, over the extended reals.

  For an embedding `x` of 4 batches of 4096 points with 64 coordinates, both programs divide `x` by its standard deviation
  `s` (over all entries, one degree of freedom removed), giving `u = x / s`, and return for every batch and every pair of
  points `exp (-(max (d² / 64) 0) / 2)` with `d² = |p_i|² + |p_j|² - 2 p_i·p_j` the squared distance of the two columns of `u`.
  The reference computes this as written.  The kernel program scales `u` by 1/8, narrows it to bf16 (nothing, at exact
  arithmetic), takes `-1/2` of each scaled point's squares on the host, and in a pipelined kernel over a 4 × 4 × 4 grid of
  1024 × 1024 tiles adds the two half-norms to the product of the scaled columns, caps the sum at zero and exponentiates.
  With real coordinates both exponents are `min (-d² / 128) 0`.

  The statement's domain: every input finite, and the sum of the squared deviations of `x`'s entries from their mean
  positive — that is, `s > 0`, the reference's own divisor: when every entry of `x` is the same number `s = 0`, `x / s` is
  infinite, and the two arrangements, which agree on reals, take different conventional values (`∞ + ∞ - ∞` against
  `-∞ + -∞ + ∞`): at `x ≡ 1` the kernel's entries are 0 and the reference's are 1.

  The parts.  Frames: the reference's is its run by hand through its nested calls (`RefRun`); the kernel program's, at
  words and at exact arithmetic alike, is the pipeline's frame rule for a kernel two of whose windows read one array, that
  array held in two halves (`KFrame`, `WFrame`: one text at any float instance).  Values: the 64 tiles the kernel writes
  back are the blocks of one array (`KValue`), a function of what the host operations computed (`KHostVal`); read at an
  index it is `Gauss.kerEntry` (`KRead`), the reference's result `Gauss.refEntry` (`RefRead`) of the same `u`; under the
  precondition `u` is real (`PreDomain`) and the two entries agree (`Algebra`).  The idealization rewrote nothing.
-/
import proofs.«152303_j32890859553362_2_alg».proof.Defs
import proofs.«152303_j32890859553362_2_alg».proof.Proof.Gen.Kernel
import proofs.«152303_j32890859553362_2_alg».proof.Proof.Gen.KernelIdeal
import proofs.«152303_j32890859553362_2_alg».proof.Proof.Gen.ReferenceIdeal
import proofs.«152303_j32890859553362_2_alg».proof.Proof.Gen.Pre_finite_inputs
import proofs.«152303_j32890859553362_2_alg».proof.Proof.WFrame
import proofs.«152303_j32890859553362_2_alg».proof.Proof.KFrame
import proofs.«152303_j32890859553362_2_alg».proof.Proof.RefRun
import proofs.«152303_j32890859553362_2_alg».proof.Proof.Bridge
import Idealize.ShloMosaic.Adequacy
import Idealize.ShloMosaic.Init

noncomputable section

namespace Cert.Proof

open Idealize.ShloMosaic Idealize.SL.Sem

/-- The word-level program runs to its end, faults nowhere and leaves its arguments as launched. -/
theorem frame_k : Cert.frame_Kernel := fun m ρ _ => Cert.Kernel.WFrame.frame m ρ

/-- So does the program read at exact arithmetic. -/
theorem frame_ki : Cert.frame_KernelIdeal := fun m ρ _ => Cert.KernelIdeal.KFrame.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- From memories agreeing on the arguments both programs end, the kernel program's result buffer at `kerOut` of the
    embedding and the reference's at `refOut` of it: one array where the precondition holds. -/
theorem algebraic : Cert.algebraic_KernelIdeal_ReferenceIdeal := by
  intro m ρ m' ρ' hpre hagree
  refine ⟨_, Cert.Bridge.kernel_run m ρ, ?_⟩
  refine (θ_run Cert.ReferenceIdeal.defs _ _).mono (fun _ h c => ⟨(h c).1.trans ?_, (h c).2⟩)
    (Cert.ReferenceIdeal.RefValue.run (F := Ideal) m' ρ')
  rw [(hagree c).2]
  exact Cert.Bridge.result_eq _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
